-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S1x64 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x64 .f32 := Host.absf main_arg8
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S2x1600000 32) (main_arg2 : FVec F S1600000 .f32) (main_arg3 : IVec S100000 32) (main_arg4 : FVec F S64x128 .f32) (main_arg5 : FVec F S64 .f32) (main_arg6 : FVec F S64x64 .f32) (main_arg7 : FVec F S64 .f32) (main_arg8 : FVec F S1x64 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S128x64 : Shape := ⟨2, ![128, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S100000x1 : Shape := ⟨2, ![100000, 1]⟩
abbrev S5000x1 : Shape := ⟨2, ![5000, 1]⟩
abbrev S64x1 : Shape := ⟨2, ![64, 1]⟩
abbrev S1x1 : Shape := ⟨2, ![1, 1]⟩

abbrev nBuf : Space → Nat
  | .hbm => 95
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000, .f32⟩
  | .hbm, ⟨48, _⟩ => ⟨S1600000, .f32⟩
  | .hbm, ⟨49, _⟩ => ⟨S100000, .f32⟩
  | .hbm, ⟨50, _⟩ => ⟨S128x64, .f32⟩
  | .hbm, ⟨51, _⟩ => ⟨S100000x64, .f32⟩
  | .hbm, ⟨52, _⟩ => ⟨S1600000x1, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S1600000x64, .f32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S1x64, .f32⟩
  | .hbm, ⟨69, _⟩ => ⟨S100000x1, .f32⟩
  | .hbm, ⟨70, _⟩ => ⟨S100000x64, .f32⟩
  | .hbm, ⟨71, _⟩ => ⟨S64x64, .f32⟩
  | .hbm, ⟨72, _⟩ => ⟨S100000x64, .f32⟩
  | .hbm, ⟨73, _⟩ => ⟨S1600000x1, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x64, .f32⟩
  | .hbm, ⟨83, _⟩ => ⟨S1600000x64, .f32⟩
  | .hbm, ⟨84, _⟩ => ⟨S1600000x64, .f32⟩
  | .hbm, ⟨85, _⟩ => ⟨S_, .f32⟩
  | .hbm, ⟨86, _⟩ => ⟨S100000x64, .f32⟩
  | .hbm, ⟨87, _⟩ => ⟨S1600000x1, .i32⟩
  | .hbm, ⟨88, _⟩ => ⟨S100000x64, .f32⟩
  | .hbm, ⟨89, _⟩ => ⟨S1x64, .f32⟩
  | .hbm, ⟨90, _⟩ => ⟨S100000x1, .f32⟩
  | .hbm, ⟨91, _⟩ => ⟨S100000x64, .f32⟩
  | .hbm, ⟨92, _⟩ => ⟨S64x1, .f32⟩
  | .hbm, ⟨93, _⟩ => ⟨S1x1, .f32⟩
  | .hbm, ⟨94, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x1, .f32⟩
  | .local _ .vmem, ⟨31, _⟩ => ⟨S1x1, .f32⟩
  | .local _ .vmem, ⟨32, _⟩ => ⟨S5000x1, .f32⟩
  | .local _ .vmem, ⟨33, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  transposes_S64x128_S128x64_1_0 : S64x128.Transposes [1, 0] S128x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  transposes_S64x64_S64x64_1_0 : S64x64.Transposes [1, 0] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S1x64_S64x1_1_0 : S1x64.Transposes [1, 0] S64x1
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S100000x1.size a
  hwx4_3 : ∀ i : grid4.Coords, EltTy.bits .f32 = 32 ∨ (Rect.block (s := S100000x1) S5000x1.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v64) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v65) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S128x64 : Shape := ⟨2, ![128, 64]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S64x1 : Shape := ⟨2, ![64, 1]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S64x128, .f32⟩
  | 5 => ⟨S64, .f32⟩
  | 6 => ⟨S64x64, .f32⟩
  | 7 => ⟨S64, .f32⟩
  | 8 => ⟨S1x64, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S128x64, .f32⟩
  | 15 => ⟨S100000x64, .f32⟩
  | 16 => ⟨S_, .f32⟩
  | 17 => ⟨S100000, .f32⟩
  | 18 => ⟨S_, .f32⟩
  | 19 => ⟨S100000, .f32⟩
  | 20 => ⟨S1600000x1, .i32⟩
  | 21 => ⟨S100000, .f32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x64, .f32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S100000, .f32⟩
  | 68 => ⟨S100000x1, .f32⟩
  | 69 => ⟨S100000x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S64x64, .f32⟩
  | 79 => ⟨S100000x64, .f32⟩
  | 80 => ⟨S_, .f32⟩
  | 81 => ⟨S100000, .f32⟩
  | 82 => ⟨S_, .f32⟩
  | 83 => ⟨S100000, .f32⟩
  | 84 => ⟨S1600000x1, .i32⟩
  | 85 => ⟨S100000, .f32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000, .f32⟩
  | 104 => ⟨S1600000, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000, .f32⟩
  | 114 => ⟨S1600000, .f32⟩
  | 115 => ⟨S1600000x1, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x64, .f32⟩
  | 125 => ⟨S1600000x64, .f32⟩
  | 126 => ⟨S1600000x64, .f32⟩
  | 127 => ⟨S_, .f32⟩
  | _ => ⟨S100000x128, .f32⟩

abbrev hbmTy0_1 (i : Nat) : BufTy := match i % 128 with
  | 0 => ⟨S100000x64, .f32⟩
  | 1 => ⟨S1600000x1, .i32⟩
  | 2 => ⟨S100000x64, .f32⟩
  | 3 => ⟨S100000, .f32⟩
  | 4 => ⟨S100000x1, .f32⟩
  | 5 => ⟨S100000x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S64x1, .f32⟩
  | 15 => ⟨S100000x1, .f32⟩
  | 16 => ⟨S1x1, .f32⟩
  | 17 => ⟨S100000x1, .f32⟩
  | 18 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v63 : Ref sig .tc := ⟨.hbm, 94, rfl⟩
abbrev main_c_13 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_17 : Ref sig .tc := ⟨.hbm, 116, rfl⟩
abbrev main_v81 : Ref sig .tc := ⟨.hbm, 117, rfl⟩
abbrev main_v82 : Ref sig .tc := ⟨.hbm, 118, rfl⟩
abbrev main_c_18 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_19 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_call3_cst : Ref sig .tc := ⟨.hbm, 139, rfl⟩
abbrev main_call3_v0 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x128_S128x64_1_0 : S64x128.Transposes [1, 0] S128x64
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The idealized kernel's whole run, with its result named. @main is twelve segments — seven stretches of host
  operations and five grid launches —, and the buffer contents at each boundary are a fold from the launch memory:
  a stretch rewrites the buffers its operations write, a launch leaves each of its arrays at what its write-backs
  leave and every other buffer as entered. Every weakly fair execution terminates with every unscoped buffer at the
  last boundary's contents; read at the result buffer this names the result, and read at an argument it is the
  launch memory, since nothing writes an argument.
-/
import proofs.«141275_j8727373545871_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the ten argument arrays as launched. -/
theorem run : θ_run defs (onTc (τ := τ) (main (F := F))) ⟨m, fun _ => 0, ρ⟩ (fun r => ∀ c : Dev nD,
      r.2.mem ((c.tc : Thread nD τ).loc main_v68) = W12 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v68 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.Whole

end
-- ==== Proof.Spec.lean ====
/-
  The four block computations of the two-layer graph convolution, each stated once as a function of whole arrays,
  index by index over the extended reals: a node-feature matrix against a weight matrix (128 or 64 terms per entry),
  the last layer's inner product plus its scalar bias, and the self-loop combination
  max(agg + d · xw + b, 0) with d a column over the nodes and b a row over the features.
-/
import proofs.«141275_j8727373545871_1_alg».proof.KernelIdeal
import Idealize.ShloMosaic.PureOps.Ideal
import Idealize.ShloMosaic.Lib.ValueIdx

noncomputable section

namespace Cert.Spec

open Idealize.ShloMosaic Idealize.ShloMosaic.ValueIdx Cert.KernelIdeal

/-- Entry (r, j) of x · w for x of 128 columns: the sum over k of x(r, k) · w(k, j). -/
def mm128 (x : FVec Ideal S100000x128 .f32) (w : FVec Ideal S128x64 .f32) : FVec Ideal S100000x64 .f32 :=
  fun i => ∑ k : Fin 128, x (ix2 (i 0) k) * w (ix2 k (i 1))

/-- Entry (r, j) of x · w for x of 64 columns. -/
def mm64 (x : FVec Ideal S100000x64 .f32) (w : FVec Ideal S64x64 .f32) : FVec Ideal S100000x64 .f32 :=
  fun i => ∑ k : Fin 64, x (ix2 (i 0) k) * w (ix2 k (i 1))

/-- Entry (r, 0) of x · w + b for a single output column and a scalar bias. -/
def lin (x : FVec Ideal S100000x64 .f32) (w : FVec Ideal S64x1 .f32) (b : FVec Ideal S1x1 .f32) : FVec Ideal S100000x1 .f32 :=
  fun i => (∑ k : Fin 64, x (ix2 (i 0) k) * w (ix2 k (i 1))) + b (ix2 0 0)

/-- Entry (r, j) of max(agg + d · xw + b, 0): d read at row r, b at column j. -/
def comb (agg xw : FVec Ideal S100000x64 .f32) (d : FVec Ideal S100000x1 .f32) (b : FVec Ideal S1x64 .f32) :
    FVec Ideal S100000x64 .f32 :=
  fun i => max (agg i + d (ix2 (i 0) 0) * xw i + b (ix2 0 (i 1))) (Ideal.ofBits .f32 0x00000000#32)

end Cert.Spec

end
-- ==== Proof.RegMat.lean ====
/-
  The three matrix-product kernels, region by region: each grid point multiplies a block of 5000 rows of the
  node-feature matrix by the whole weight matrix and writes the block of the product with the same rows; the
  twenty blocks tile the 100000 rows, so the output array ends holding the whole product, entry by entry
  the sum over the contracted axis. The last layer's kernel also adds the scalar bias to every row.
-/
import proofs.«141275_j8727373545871_1_alg».proof.Proof.Gen.KernelIdeal.Frame
import proofs.«141275_j8727373545871_1_alg».proof.Proof.Spec
import Idealize.ShloMosaic.Lib.Pipeline.Value
import Idealize.ShloMosaic.Lib.ValueIdx
import Idealize.ShloMosaic.PureOps.Ideal.Laws

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- A block stored or loaded whole starts at offset zero on both axes. -/
theorem zero_offsets : (![0, 0] : Fin 2 → Nat) = fun _ => 0 := funext fun a => by fin_cases a <;> rfl

/-! ## Region 0: a block of 5000 rows of x (128 columns) times w (128 × 64) -/

/-- The left operand's row coordinate is the output's row. -/
theorem blk0_lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

/-- The right operand's column coordinate is the output's column. -/
theorem blk0_rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The body's result at row p, column q of the block: the sum over k of x(p, k) · w(k, q). Narrowing both
    operands to a shorter float format and recasting w to its own shape change nothing over the extended reals,
    and the accumulator starts at zero. -/
theorem blk0_apply (x : FVec Ideal S5000x128 .f32) (w : FVec Ideal S128x64 .f32) (p : Fin 5000) (q : Fin 64) :
    k0_pay1 (F := Ideal) x w (ix2 p q) = ∑ k : Fin 128, x (ix2 p k) * w (ix2 k q) := by
  unfold k0_pay1
  rw [shapeCast_self]
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact blk0_lhs_row _ _
      | ⟨1, _⟩ => exact ((dot_S5000x128_S128x64_S5000x64_1_0_0_1_n_n).lhsIdx_val_of_single rfl (ix2 p q) _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact ((dot_S5000x128_S128x64_S5000x64_1_0_0_1_n_n).rhsIdx_val_of_single rfl (ix2 p q) _).trans hk
      | ⟨1, _⟩ => exact blk0_rhs_col _ _)
  rw [el, er]
  rfl

/-- Entry (a, q) of x · w read off a block: if the block x' holds rows r … r + 4999 of x and w' is w, then the
    body's result at row p of the block is entry (r + p, q) of the whole product. -/
theorem blk0_is_product (X : FVec Ideal S100000x128 .f32) (W : FVec Ideal S128x64 .f32)
    (x' : FVec Ideal S5000x128 .f32) (w' : FVec Ideal S128x64 .f32) (r : Nat)
    (hx : ∀ (p : Fin 5000) (k : Fin 128) (a : Fin 100000), a.val = r + p.val → x' (ix2 p k) = X (ix2 a k))
    (hw : ∀ (k : Fin 128) (q : Fin 64), w' (ix2 k q) = W (ix2 k q))
    (y : S5000x64.Idx) (i : S100000x64.Idx) (hi0 : (i 0).val = r + (y 0).val) (hi1 : (i 1).val = (y 1).val) :
    k0_pay1 (F := Ideal) x' w' y = Cert.Spec.mm128 X W i := by
  obtain ⟨p, q, rfl⟩ : ∃ (p : Fin 5000) (q : Fin 64), y = ix2 p q := ⟨y 0, y 1, eq_ix2 y⟩
  obtain ⟨a, b, rfl⟩ : ∃ (a : Fin 100000) (b : Fin 64), i = ix2 a b := ⟨i 0, i 1, eq_ix2 i⟩
  obtain rfl : b = q := Fin.ext hi1
  rw [blk0_apply]
  show _ = ∑ k : Fin 128, X (ix2 a k) * W (ix2 k b)
  exact Finset.sum_congr rfl fun k _ => by rw [hx p k a hi0, hw k b]

/-- The printed index maps over the grid: at point t the x block and the output block are block t along the rows,
    and the weights are fetched whole. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product of the arrays the region finds. -/
theorem flushed0 (c : Dev nD) (t : Fin cfg0.N) :
    (dat0 (F := Ideal) V c).flushed 2 t
      = ((cfg0.win 2).blk t).view.read (Elt Ideal) (Cert.Spec.mm128 (V c main_arg0) (V c main_v30)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x64) zero_offsets]
  obtain ⟨e0, e1, e2, e3, e4, e5⟩ := index_maps0 t
  funext j
  show k0_pay1 (F := Ideal) (iblk0 V c 0 t) (iblk0 V c 1 t) j
    = Cert.Spec.mm128 (V c main_arg0) (V c main_v30) (((cfg0.win 2).blk t).view.emb j)
  refine blk0_is_product (V c main_arg0) (V c main_v30) (iblk0 V c 0 t) (iblk0 V c 1 t) (t.val * 5000) ?_ ?_ j _ ?_ ?_
  · intro p k a ha
    show V c main_arg0 (((cfg0.win 0).blk t).view.emb (ix2 p k)) = V c main_arg0 (ix2 a k)
    refine congrArg _ (funext fun d => Fin.ext ?_)
    match d with
    | ⟨0, _⟩ => show win0_0.index t (0 : Fin 2) * 5000 + 1 * p.val = a.val; omega
    | ⟨1, _⟩ => show win0_0.index t (1 : Fin 2) * 128 + 1 * k.val = k.val; omega
  · intro k q
    show V c main_v30 (((cfg0.win 1).blk t).view.emb (ix2 k q)) = V c main_v30 (ix2 k q)
    refine congrArg _ (funext fun d => Fin.ext ?_)
    match d with
    | ⟨0, _⟩ => show win0_1.index t (0 : Fin 2) * 128 + 1 * k.val = k.val; omega
    | ⟨1, _⟩ => show win0_1.index t (1 : Fin 2) * 64 + 1 * q.val = q.val; omega
  · show win0_2.index t (0 : Fin 2) * 5000 + 1 * (j 0).val = t.val * 5000 + (j 0).val; omega
  · show win0_2.index t (1 : Fin 2) * 64 + 1 * (j 1).val = (j 1).val; omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v31).slice (win0_2.rect t)).set ↔ _
  rw [View.set_slice_whole, Rect.mem_set_unit]
  exact Iff.rfl

/-- Row r of the output lies in the block of point r / 5000, and every point writes its block back. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, e4, e5⟩ := index_maps0 ⟨(i 0).val / 5000, hlt⟩
  refine ⟨⟨(i 0).val / 5000, hlt⟩, flush0_2 _, ?_⟩
  rw [mem_blk0]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 64 ≤ (i 1).val
      ∧ (i 1).val < win0_2.index ⟨(i 0).val / 5000, hlt⟩ (1 : Fin 2) * 64 + 64
    rw [e5]; omega

/-- Region 0 leaves x · w in its output array. -/
theorem region0 (c : Dev nD) :
    (dat0 (F := Ideal) V c).arrAt 2 cfg0.N = Cert.Spec.mm128 (V c main_arg0) (V c main_v30) :=
  (dat0 (F := Ideal) V c).arrAt_eq_of_cover 2 (Cert.Spec.mm128 (V c main_arg0) (V c main_v30))
    (fun t _ => flushed0 V c t) cover0

/-! ## Region 2: a block of 5000 rows of x (64 columns) times w (64 × 64) -/

/-- The left operand's row coordinate is the output's row. -/
theorem blk2_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The right operand's column coordinate is the output's column. -/
theorem blk2_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The body's result at row p, column q of the block: the sum over k of x(p, k) · w(k, q). -/
theorem blk2_apply (x : FVec Ideal S5000x64 .f32) (w : FVec Ideal S64x64 .f32) (p : Fin 5000) (q : Fin 64) :
    k2_pay1 (F := Ideal) x w (ix2 p q) = ∑ k : Fin 64, x (ix2 p k) * w (ix2 k q) := by
  unfold k2_pay1
  rw [shapeCast_self, shapeCast_self]
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact blk2_lhs_row _ _
      | ⟨1, _⟩ => exact ((dot_S5000x64_S64x64_S5000x64_1_0_0_1_n_n).lhsIdx_val_of_single rfl (ix2 p q) _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact ((dot_S5000x64_S64x64_S5000x64_1_0_0_1_n_n).rhsIdx_val_of_single rfl (ix2 p q) _).trans hk
      | ⟨1, _⟩ => exact blk2_rhs_col _ _)
  rw [el, er]
  rfl

/-- If the block x' holds rows r … r + 4999 of x and w' is w, the body's result at row p of the block is
    entry (r + p, q) of the whole product. -/
theorem blk2_is_product (X : FVec Ideal S100000x64 .f32) (W : FVec Ideal S64x64 .f32)
    (x' : FVec Ideal S5000x64 .f32) (w' : FVec Ideal S64x64 .f32) (r : Nat)
    (hx : ∀ (p : Fin 5000) (k : Fin 64) (a : Fin 100000), a.val = r + p.val → x' (ix2 p k) = X (ix2 a k))
    (hw : ∀ (k : Fin 64) (q : Fin 64), w' (ix2 k q) = W (ix2 k q))
    (y : S5000x64.Idx) (i : S100000x64.Idx) (hi0 : (i 0).val = r + (y 0).val) (hi1 : (i 1).val = (y 1).val) :
    k2_pay1 (F := Ideal) x' w' y = Cert.Spec.mm64 X W i := by
  obtain ⟨p, q, rfl⟩ : ∃ (p : Fin 5000) (q : Fin 64), y = ix2 p q := ⟨y 0, y 1, eq_ix2 y⟩
  obtain ⟨a, b, rfl⟩ : ∃ (a : Fin 100000) (b : Fin 64), i = ix2 a b := ⟨i 0, i 1, eq_ix2 i⟩
  obtain rfl : b = q := Fin.ext hi1
  rw [blk2_apply]
  show _ = ∑ k : Fin 64, X (ix2 a k) * W (ix2 k b)
  exact Finset.sum_congr rfl fun k _ => by rw [hx p k a hi0, hw k b]

/-- The printed index maps over the grid: at point t the x block and the output block are block t along the rows,
    and the weights are fetched whole. -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the arrays the region finds. -/
theorem flushed2 (c : Dev nD) (t : Fin cfg2.N) :
    (dat2 (F := Ideal) V c).flushed 2 t
      = ((cfg2.win 2).blk t).view.read (Elt Ideal) (Cert.Spec.mm64 (V c main_v47) (V c main_v48)) := by
  show (cfg2.win 2).cut (grid2.coords t) ((dat2 (F := Ideal) V c).after 2 t) = _
  rw [after2_2]
  unfold out2_2
  rw [View.canon_unit_zero zero_offsets]
  simp only [View.ld_unit_zero (S := S5000x64) zero_offsets, View.ld_unit_zero (S := S64x64) zero_offsets]
  obtain ⟨e0, e1, e2, e3, e4, e5⟩ := index_maps2 t
  funext j
  show k2_pay1 (F := Ideal) (iblk2 V c 0 t) (iblk2 V c 1 t) j
    = Cert.Spec.mm64 (V c main_v47) (V c main_v48) (((cfg2.win 2).blk t).view.emb j)
  refine blk2_is_product (V c main_v47) (V c main_v48) (iblk2 V c 0 t) (iblk2 V c 1 t) (t.val * 5000) ?_ ?_ j _ ?_ ?_
  · intro p k a ha
    show V c main_v47 (((cfg2.win 0).blk t).view.emb (ix2 p k)) = V c main_v47 (ix2 a k)
    refine congrArg _ (funext fun d => Fin.ext ?_)
    match d with
    | ⟨0, _⟩ => show win2_0.index t (0 : Fin 2) * 5000 + 1 * p.val = a.val; omega
    | ⟨1, _⟩ => show win2_0.index t (1 : Fin 2) * 64 + 1 * k.val = k.val; omega
  · intro k q
    show V c main_v48 (((cfg2.win 1).blk t).view.emb (ix2 k q)) = V c main_v48 (ix2 k q)
    refine congrArg _ (funext fun d => Fin.ext ?_)
    match d with
    | ⟨0, _⟩ => show win2_1.index t (0 : Fin 2) * 64 + 1 * k.val = k.val; omega
    | ⟨1, _⟩ => show win2_1.index t (1 : Fin 2) * 64 + 1 * q.val = q.val; omega
  · show win2_2.index t (0 : Fin 2) * 5000 + 1 * (j 0).val = t.val * 5000 + (j 0).val; omega
  · show win2_2.index t (1 : Fin 2) * 64 + 1 * (j 1).val = (j 1).val; omega

/-- An index of the output array is in point t's block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v49).slice (win2_2.rect t)).set ↔ _
  rw [View.set_slice_whole, Rect.mem_set_unit]
  exact Iff.rfl

/-- Row r of the output lies in the block of point r / 5000, and every point writes its block back. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  have hlt : (i 0).val / 5000 < cfg2.N := by rw [hN]; omega
  obtain ⟨-, -, -, -, e4, e5⟩ := index_maps2 ⟨(i 0).val / 5000, hlt⟩
  refine ⟨⟨(i 0).val / 5000, hlt⟩, flush2_2 _, ?_⟩
  rw [mem_blk2]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ (1 : Fin 2) * 64 ≤ (i 1).val
      ∧ (i 1).val < win2_2.index ⟨(i 0).val / 5000, hlt⟩ (1 : Fin 2) * 64 + 64
    rw [e5]; omega

/-- Region 2 leaves x · w in its output array. -/
theorem region2 (c : Dev nD) :
    (dat2 (F := Ideal) V c).arrAt 2 cfg2.N = Cert.Spec.mm64 (V c main_v47) (V c main_v48) :=
  (dat2 (F := Ideal) V c).arrAt_eq_of_cover 2 (Cert.Spec.mm64 (V c main_v47) (V c main_v48))
    (fun t _ => flushed2 V c t) cover2

/-! ## Region 4: a block of 5000 rows of x (64 columns) times the column w (64 × 1), plus the scalar bias -/

/-- The left operand's row coordinate is the output's row. -/
theorem blk4_lhs_row (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide),
    dif_pos (show (0 : Fin S5000x64.rank) ∈ dot_S5000x64_S64x1_S5000x1_1_0_0_1_n_n.lhsNonContracting by decide)]
  rfl

/-- The right operand's column coordinate is the output's column. -/
theorem blk4_rhs_col (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide),
    dif_pos (show (1 : Fin S64x1.rank) ∈ dot_S5000x64_S64x1_S5000x1_1_0_0_1_n_n.rhsNonContracting by decide)]
  rfl

/-- A 1 × 1 array has one index. -/
theorem idx_1x1_unique (k k' : S1x1.Idx) : k = k' :=
  funext fun a => match a with
    | ⟨0, _⟩ => Fin.ext (by
        have h : (k 0).val < 1 := (k 0).isLt
        have h' : (k' 0).val < 1 := (k' 0).isLt
        show (k 0).val = (k' 0).val
        omega)
    | ⟨1, _⟩ => Fin.ext (by
        have h : (k 1).val < 1 := (k 1).isLt
        have h' : (k' 1).val < 1 := (k' 1).isLt
        show (k 1).val = (k' 1).val
        omega)

/-- The body's result at row p of the block: the sum over k of x(p, k) · w(k, q), plus the one entry of the
    bias, which the body spreads down the rows. -/
theorem blk4_apply (x : FVec Ideal S5000x64 .f32) (w : FVec Ideal S64x1 .f32) (b : FVec Ideal S1x1 .f32)
    (p : Fin 5000) (q : Fin 1) :
    k4_pay1 (F := Ideal) x w b (ix2 p q) = (∑ k : Fin 64, x (ix2 p k) * w (ix2 k q)) + b (ix2 0 0) := by
  unfold k4_pay1
  rw [shapeCast_self, shapeCast_self, shapeCast_self, addf_apply]
  have hb : broadcastTo S5000x1 b Facts₀.broadcasts_S1x1_S5000x1 (ix2 p q) = b (ix2 0 0) := by
    unfold broadcastTo
    exact congrArg b (idx_1x1_unique _ _)
  rw [hb]
  refine congrArg (· + b (ix2 0 0)) ?_
  simp only [matmul]
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p q) ((contrEquiv1 dot_S5000x64_S64x1_S5000x1_1_0_0_1_n_n 64 rfl rfl).symm k) = ix2 p k :=
    funext fun a => Fin.ext (by
      match a with
      | ⟨0, _⟩ => exact blk4_lhs_row _ _
      | ⟨1, _⟩ => exact ((dot_S5000x64_S64x1_S5000x1_1_0_0_1_n_n).lhsIdx_val_of_single rfl (ix2 p q) _).trans hk)
  have er : dot_S5000x64_S64x1_S5000x1_1_0_0_1_n_n.rhsIdx (ix2 p q) ((contrEquiv1 dot_S5000x64_S64x1_S5000x1_1_0_0_1_n_n 64 rfl rfl).symm k) = ix2 k q :=
    funext fun a => Fin.ext (by
      match a with
      | ⟨0, _⟩ => exact ((dot_S5000x64_S64x1_S5000x1_1_0_0_1_n_n).rhsIdx_val_of_single rfl (ix2 p q) _).trans hk
      | ⟨1, _⟩ => exact blk4_rhs_col _ _)
  rw [el, er]
  rfl

/-- If the block x' holds rows r … r + 4999 of x, w' is w and b' is b, the body's result at row p of the block is
    entry (r + p, 0) of x · w + b. -/
theorem blk4_is_lin (X : FVec Ideal S100000x64 .f32) (W : FVec Ideal S64x1 .f32) (B : FVec Ideal S1x1 .f32)
    (x' : FVec Ideal S5000x64 .f32) (w' : FVec Ideal S64x1 .f32) (b' : FVec Ideal S1x1 .f32) (r : Nat)
    (hx : ∀ (p : Fin 5000) (k : Fin 64) (a : Fin 100000), a.val = r + p.val → x' (ix2 p k) = X (ix2 a k))
    (hw : ∀ (k : Fin 64) (q : Fin 1), w' (ix2 k q) = W (ix2 k q))
    (hb : b' (ix2 0 0) = B (ix2 0 0))
    (y : S5000x1.Idx) (i : S100000x1.Idx) (hi0 : (i 0).val = r + (y 0).val) (hi1 : (i 1).val = (y 1).val) :
    k4_pay1 (F := Ideal) x' w' b' y = Cert.Spec.lin X W B i := by
  obtain ⟨p, q, rfl⟩ : ∃ (p : Fin 5000) (q : Fin 1), y = ix2 p q := ⟨y 0, y 1, eq_ix2 y⟩
  obtain ⟨a, b, rfl⟩ : ∃ (a : Fin 100000) (b : Fin 1), i = ix2 a b := ⟨i 0, i 1, eq_ix2 i⟩
  obtain rfl : b = q := Fin.ext hi1
  rw [blk4_apply, hb]
  show _ = (∑ k : Fin 64, X (ix2 a k) * W (ix2 k b)) + B (ix2 0 0)
  exact congrArg (· + B (ix2 0 0)) (Finset.sum_congr rfl fun k _ => by rw [hx p k a hi0, hw k b])

/-- The printed index maps over the grid: at point t the x block and the output block are block t along the rows;
    the weights and the bias are fetched whole. -/
theorem index_maps4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of x · w + b of the arrays the region finds. -/
theorem flushed4 (c : Dev nD) (t : Fin cfg4.N) :
    (dat4 (F := Ideal) V c).flushed 3 t
      = ((cfg4.win 3).blk t).view.read (Elt Ideal) (Cert.Spec.lin (V c main_v65) (V c main_v66) (V c main_v67)) := by
  show (cfg4.win 3).cut (grid4.coords t) ((dat4 (F := Ideal) V c).after 3 t) = _
  rw [after4_3]
  unfold out4_3
  rw [View.canon_unit_zero zero_offsets]
  simp only [View.ld_unit_zero (S := S5000x64) zero_offsets, View.ld_unit_zero (S := S64x1) zero_offsets,
    View.ld_unit_zero (S := S1x1) zero_offsets]
  obtain ⟨e0, e1, e2, e3, e4, e5, e6, e7⟩ := index_maps4 t
  funext j
  show k4_pay1 (F := Ideal) (iblk4 V c 0 t) (iblk4 V c 1 t) (iblk4 V c 2 t) j
    = Cert.Spec.lin (V c main_v65) (V c main_v66) (V c main_v67) (((cfg4.win 3).blk t).view.emb j)
  refine blk4_is_lin (V c main_v65) (V c main_v66) (V c main_v67) (iblk4 V c 0 t) (iblk4 V c 1 t) (iblk4 V c 2 t)
    (t.val * 5000) ?_ ?_ ?_ j _ ?_ ?_
  · intro p k a ha
    show V c main_v65 (((cfg4.win 0).blk t).view.emb (ix2 p k)) = V c main_v65 (ix2 a k)
    refine congrArg _ (funext fun d => Fin.ext ?_)
    match d with
    | ⟨0, _⟩ => show win4_0.index t (0 : Fin 2) * 5000 + 1 * p.val = a.val; omega
    | ⟨1, _⟩ => show win4_0.index t (1 : Fin 2) * 64 + 1 * k.val = k.val; omega
  · intro k q
    show V c main_v66 (((cfg4.win 1).blk t).view.emb (ix2 k q)) = V c main_v66 (ix2 k q)
    refine congrArg _ (funext fun d => Fin.ext ?_)
    match d with
    | ⟨0, _⟩ => show win4_1.index t (0 : Fin 2) * 64 + 1 * k.val = k.val; omega
    | ⟨1, _⟩ => show win4_1.index t (1 : Fin 2) * 1 + 1 * q.val = q.val; omega
  · show V c main_v67 (((cfg4.win 2).blk t).view.emb (ix2 0 0)) = V c main_v67 (ix2 0 0)
    exact congrArg _ (idx_1x1_unique _ _)
  · show win4_3.index t (0 : Fin 2) * 5000 + 1 * (j 0).val = t.val * 5000 + (j 0).val; omega
  · show win4_3.index t (1 : Fin 2) * 1 + 1 * (j 1).val = (j 1).val; omega

/-- An index of the output array is in point t's block iff each coordinate is in the block's range on its axis. -/
theorem mem_blk4 (t : Fin cfg4.N) (i : S100000x1.Idx) :
    i ∈ ((cfg4.win 3).blk t).view.set ↔ ∀ a : Fin 2, win4_3.index t a * S5000x1.size a ≤ (i a).val
      ∧ (i a).val < win4_3.index t a * S5000x1.size a + S5000x1.size a := by
  show i ∈ ((View.whole main_v68).slice (win4_3.rect t)).set ↔ _
  rw [View.set_slice_whole, Rect.mem_set_unit]
  exact Iff.rfl

/-- Row r of the output lies in the block of point r / 5000, and every point writes its block back. -/
theorem cover4 (i : S100000x1.Idx) :
    ∃ t : Fin cfg4.N, (cfg4.win 3).flush t = true ∧ i ∈ ((cfg4.win 3).blk t).view.set := by
  have hi0 : (i 0).val < 100000 := (i 0).isLt
  have hi1 : (i 1).val < 1 := (i 1).isLt
  have hN : cfg4.N = 20 := N_4
  have hlt : (i 0).val / 5000 < cfg4.N := by rw [hN]; omega
  obtain ⟨-, -, -, -, -, -, e6, e7⟩ := index_maps4 ⟨(i 0).val / 5000, hlt⟩
  refine ⟨⟨(i 0).val / 5000, hlt⟩, flush4_3 _, ?_⟩
  rw [mem_blk4]
  intro a
  match a with
  | ⟨0, _⟩ =>
    show win4_3.index ⟨(i 0).val / 5000, hlt⟩ (0 : Fin 2) * 5000 ≤ (i 0).val
      ∧ (i 0).val < win4_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win4_3.index ⟨(i 0).val / 5000, hlt⟩ (1 : Fin 2) * 1 ≤ (i 1).val
      ∧ (i 1).val < win4_3.index ⟨(i 0).val / 5000, hlt⟩ (1 : Fin 2) * 1 + 1
    rw [e7]; omega

/-- Region 4 leaves x · w + b in its output array. -/
theorem region4 (c : Dev nD) :
    (dat4 (F := Ideal) V c).arrAt 3 cfg4.N = Cert.Spec.lin (V c main_v65) (V c main_v66) (V c main_v67) :=
  (dat4 (F := Ideal) V c).arrAt_eq_of_cover 3 (Cert.Spec.lin (V c main_v65) (V c main_v66) (V c main_v67))
    (fun t _ => flushed4 V c t) cover4

end Cert.KernelIdeal.RegVal

end
-- ==== Proof.RegComb.lean ====
/-
  The two self-loop combination steps of the two-layer graph convolution, each as ONE function of whole arrays.
  A step works on the 100000 nodes in 20 blocks of 5000 rows: at block t it reads rows 5000 t … 5000 t + 4999 of the
  aggregated neighbour features, of the transformed features and of the degree column, and the whole bias row, and
  writes back max(agg + d · xw + b, 0) for those rows, the degree factor broadcast across the 64 features and the bias
  down the rows. Entry (r, j) of the result is therefore written once, by block r / 5000, and depends on row r of the
  three node arrays and on column j of the bias: the result array is the combination of the specification, read at the
  arrays as the step finds them.
-/
import proofs.«141275_j8727373545871_1_alg».proof.Proof.Gen.KernelIdeal.Frame
import proofs.«141275_j8727373545871_1_alg».proof.Proof.Spec
import Idealize.ShloMosaic.Lib.Pipeline.Value
import Idealize.ShloMosaic.Lib.ValueIdx

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-- The loads and the one store of the body go through the whole staging buffer: offsets (0, 0). -/
theorem comb_zero_offsets : (![0, 0] : Fin 2 → Nat) = fun _ => 0 := funext fun a => by fin_cases a <;> rfl

/-! ## The block computation at an entry -/

/-- The degree column of a block, broadcast across the 64 features, reads row p of the column at (p, q). -/
theorem scale_block_apply (d : Vec Ideal S5000x1 .f32) (p : Fin 5000) (q : Fin 64) :
    broadcastTo S5000x64 d broadcasts_S5000x1_S5000x64 (ix2 p q) = d (ix2 p (0 : Fin 1)) :=
  broadcastTo_apply d broadcasts_S5000x1_S5000x64 (ix2 p q) (ix2 p (0 : Fin 1)) (fun a => match a with
    | ⟨0, _⟩ => by show p.val = if (5000 : Nat) = 1 then 0 else p.val; rw [if_neg (by decide)]
    | ⟨1, _⟩ => by show 0 = if (1 : Nat) = 1 then 0 else q.val; rw [if_pos rfl])

/-- The bias row, broadcast down the 5000 rows of a block, reads column q of the row at (p, q). -/
theorem bias_block_apply (b : Vec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- What the body stores, at row p and feature q of the block: max(agg + d · xw + b, 0), the degree factor read at
    row p and the bias at feature q (the casts to the same shape are the identity). -/
theorem comb_block_apply (d : Vec Ideal S5000x1 .f32) (xw agg : Vec Ideal S5000x64 .f32) (b : Vec Ideal S1x64 .f32)
    (p : Fin 5000) (q : Fin 64) :
    k1_pay1 (F := Ideal) d xw agg b (ix2 p q)
      = max (agg (ix2 p q) + d (ix2 p (0 : Fin 1)) * xw (ix2 p q) + b (ix2 (0 : Fin 1) q)) (Ideal.ofBits .f32 0x00000000#32) := by
  unfold k1_pay1
  simp only [shapeCast_self]
  rw [maximumf_apply, addf_apply, addf_apply, mulf_apply, scale_block_apply d p q, bias_block_apply b p q]
  rfl

/-- The second layer's combination is the same computation. -/
theorem k3_eq : @k3_pay1 = @k1_pay1 := rfl

/-- The block computation against the whole arrays: if entry (p, q) of the aggregate's and of the transformed
    features' blocks is entry i of their arrays, row p of the degree block is row (i 0) of the degree column and
    column q of the bias row is column (i 1), then entry (p, q) of what the body stores is the combination at i. -/
theorem comb_point (A XW : FVec Ideal S100000x64 .f32) (D : FVec Ideal S100000x1 .f32) (B : FVec Ideal S1x64 .f32)
    (d : Vec Ideal S5000x1 .f32) (xw agg : Vec Ideal S5000x64 .f32) (b : Vec Ideal S1x64 .f32)
    (p : Fin 5000) (q : Fin 64) (i : S100000x64.Idx)
    (hagg : agg (ix2 p q) = A i) (hxw : xw (ix2 p q) = XW i)
    (hd : d (ix2 p (0 : Fin 1)) = D (ix2 (i 0) 0)) (hb : b (ix2 (0 : Fin 1) q) = B (ix2 0 (i 1))) :
    k1_pay1 (F := Ideal) d xw agg b (ix2 p q) = Cert.Spec.comb A XW D B i := by
  rw [comb_block_apply, hagg, hxw, hd, hb]
  rfl

variable (V : (c : Dev nD) → (b : Ref sig .tc) → Buf (Elt Ideal) ((c : Thread nD τ).loc b))

/-! ## Region 1: the first layer's combination -/

/-- The printed index maps of region 1, decided over the grid: the three row-blocked inputs and the output sit at
    row block t and column block 0, the bias row at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point t is rows 5000 t … 5000 t + 4999 of its array. -/
theorem agg_read1 (c : Dev nD) (t : Fin cfg1.N) (y : S5000x64.Idx) (i : S100000x64.Idx)
    (h0 : (i 0).val = t.val * 5000 + (y 0).val) (h1 : (i 1).val = (y 1).val) :
    iblk1 V c 0 t y = V c main_v44 i := by
  obtain ⟨e0, e1, -⟩ := idx_facts1 t
  unfold iblk1
  show V c main_v44 (((cfg1.win 0).blk t).view.emb y) = V c main_v44 i
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- The transformed features' block at point t is the same rows of their array. -/
theorem xw_read1 (c : Dev nD) (t : Fin cfg1.N) (y : S5000x64.Idx) (i : S100000x64.Idx)
    (h0 : (i 0).val = t.val * 5000 + (y 0).val) (h1 : (i 1).val = (y 1).val) :
    iblk1 V c 1 t y = V c main_v31 i := by
  obtain ⟨-, -, e0, e1, -⟩ := idx_facts1 t
  unfold iblk1
  show V c main_v31 (((cfg1.win 1).blk t).view.emb y) = V c main_v31 i
  refine congrArg _ (funext fun a => Fin.ext ?_)
  match a with
  | ⟨0, _⟩ => show win1_1.index t (0 : Fin 2) * 5000 + 1 * (y 0).val = (i 0).val; omega
  | ⟨1, _⟩ => show win1_1.index t (1 : Fin 2) * 64 + 1 * (y 1).val = (i 1).val; omega

/-- The degree column's block at point t is the same rows of the column. -/
theorem deg_read1 (c : Dev nD) (t : Fin cfg1.N) (y : S5000x1.Idx) (i : S100000x1.Idx)
    (h0 : (i 0).val = t.val * 5000 + (y 0).val) :
    iblk1 V c 2 t y = V c main_v46 i := by
  obtain ⟨-, -, -, -, e0, e1, -⟩ := idx_facts1 t
  have hy : (y 1).val < 1 := (y 1).isLt
  have hi : (i 1).val < 1 := (i 1).isLt
  unfold iblk1
  show V c main_v46 (((cfg1.win 2).blk t).view.emb y) = V c main_v46 i
  refine congrArg _ (funext fun a => Fin.ext ?_)
  match a with
  | ⟨0, _⟩ => show win1_2.index t (0 : Fin 2) * 5000 + 1 * (y 0).val = (i 0).val; omega
  | ⟨1, _⟩ => show win1_2.index t (1 : Fin 2) * 1 + 1 * (y 1).val = (i 1).val; omega

/-- The bias row is fetched whole at every point. -/
theorem bias_read1 (c : Dev nD) (t : Fin cfg1.N) (y : S1x64.Idx) (i : S1x64.Idx) (h1 : (i 1).val = (y 1).val) :
    iblk1 V c 3 t y = V c main_v45 i := by
  obtain ⟨-, -, -, -, -, -, e0, e1, -⟩ := idx_facts1 t
  have hy : (y 0).val < 1 := (y 0).isLt
  have hi : (i 0).val < 1 := (i 0).isLt
  unfold iblk1
  show V c main_v45 (((cfg1.win 3).blk t).view.emb y) = V c main_v45 i
  refine congrArg _ (funext fun a => Fin.ext ?_)
  match a with
  | ⟨0, _⟩ => show win1_3.index t (0 : Fin 2) * 1 + 1 * (y 0).val = (i 0).val; omega
  | ⟨1, _⟩ => show win1_3.index t (1 : Fin 2) * 64 + 1 * (y 1).val = (i 1).val; omega

/-- Entry y of the output's block at point t is entry (5000 t + y 0, y 1) of the output array. -/
theorem out_emb1 (t : Fin cfg1.N) (y : S5000x64.Idx) :
    ((((cfg1.win 4).blk t).view.emb y) 0).val = t.val * 5000 + (y 0).val
    ∧ ((((cfg1.win 4).blk t).view.emb y) 1).val = (y 1).val := by
  obtain ⟨-, -, -, -, -, -, -, -, e0, e1⟩ := idx_facts1 t
  constructor
  · show win1_4.index t (0 : Fin 2) * 5000 + 1 * (y 0).val = _; omega
  · show win1_4.index t (1 : Fin 2) * 64 + 1 * (y 1).val = _; omega

/-- What point t writes back is block t of the combination of the four arrays as the region finds them. -/
theorem flushed1 (c : Dev nD) (t : Fin cfg1.N) :
    (dat1 (F := Ideal) V c).flushed 4 t
      = ((cfg1.win 4).blk t).view.read (Elt Ideal) (Cert.Spec.comb (V c main_v44) (V c main_v31) (V c main_v46) (V c main_v45)) := by
  show (cfg1.win 4).cut (grid1.coords t) ((dat1 (F := Ideal) V c).after 4 t) = _
  rw [after1_4]
  unfold out1_4
  rw [View.canon_unit_zero comb_zero_offsets]
  simp only [View.ld_unit_zero (S := S5000x1) comb_zero_offsets, View.ld_unit_zero (S := S5000x64) comb_zero_offsets,
    View.ld_unit_zero (S := S1x64) comb_zero_offsets]
  funext j
  obtain ⟨o0, o1⟩ := out_emb1 t j
  show k1_pay1 (F := Ideal) (iblk1 V c 2 t) (iblk1 V c 1 t) (iblk1 V c 0 t) (iblk1 V c 3 t) (ix2 (⟨(j 0).val, (j 0).isLt⟩ : Fin 5000) (⟨(j 1).val, (j 1).isLt⟩ : Fin 64))
    = Cert.Spec.comb (V c main_v44) (V c main_v31) (V c main_v46) (V c main_v45) (((cfg1.win 4).blk t).view.emb j)
  exact comb_point (V c main_v44) (V c main_v31) (V c main_v46) (V c main_v45) (iblk1 V c 2 t) (iblk1 V c 1 t) (iblk1 V c 0 t) (iblk1 V c 3 t)
    ⟨(j 0).val, (j 0).isLt⟩ ⟨(j 1).val, (j 1).isLt⟩ (((cfg1.win 4).blk t).view.emb j)
    (agg_read1 V c t _ _ o0 o1) (xw_read1 V c t _ _ o0 o1) (deg_read1 V c t _ _ o0) (bias_read1 V c t _ _ o1)

/-- An entry of the output array is in point t's block iff each coordinate is in the block's range on its axis. -/
theorem mem_out_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v47).slice (win1_4.rect t)).set ↔ _
  rw [View.set_slice_whole, Rect.mem_set_unit]
  exact Iff.rfl

/-- Every entry of the output array is written back by some point: row r by point r / 5000. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨-, -, -, -, -, -, -, -, e0, e1⟩ := idx_facts1 t
  refine ⟨t, flush1_4 t, ?_⟩
  rw [mem_out_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The output array of region 1 after its run: the combination of the four arrays as the region finds them. -/
theorem region1 (c : Dev nD) :
    (dat1 (F := Ideal) V c).arrAt 4 cfg1.N = Cert.Spec.comb (V c main_v44) (V c main_v31) (V c main_v46) (V c main_v45) :=
  (dat1 (F := Ideal) V c).arrAt_eq_of_cover 4 (Cert.Spec.comb (V c main_v44) (V c main_v31) (V c main_v46) (V c main_v45))
    (fun t _ => flushed1 V c t) cover1

/-! ## Region 3: the second layer's combination -/

/-- The printed index maps of region 3, decided over the grid: the three row-blocked inputs and the output sit at
    row block t and column block 0, the bias row at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point t is rows 5000 t … 5000 t + 4999 of its array. -/
theorem agg_read3 (c : Dev nD) (t : Fin cfg3.N) (y : S5000x64.Idx) (i : S100000x64.Idx)
    (h0 : (i 0).val = t.val * 5000 + (y 0).val) (h1 : (i 1).val = (y 1).val) :
    iblk3 V c 0 t y = V c main_v62 i := by
  obtain ⟨e0, e1, -⟩ := idx_facts3 t
  unfold iblk3
  show V c main_v62 (((cfg3.win 0).blk t).view.emb y) = V c main_v62 i
  refine congrArg _ (funext fun a => Fin.ext ?_)
  match a with
  | ⟨0, _⟩ => show win3_0.index t (0 : Fin 2) * 5000 + 1 * (y 0).val = (i 0).val; omega
  | ⟨1, _⟩ => show win3_0.index t (1 : Fin 2) * 64 + 1 * (y 1).val = (i 1).val; omega

/-- The transformed features' block at point t is the same rows of their array. -/
theorem xw_read3 (c : Dev nD) (t : Fin cfg3.N) (y : S5000x64.Idx) (i : S100000x64.Idx)
    (h0 : (i 0).val = t.val * 5000 + (y 0).val) (h1 : (i 1).val = (y 1).val) :
    iblk3 V c 1 t y = V c main_v49 i := by
  obtain ⟨-, -, e0, e1, -⟩ := idx_facts3 t
  unfold iblk3
  show V c main_v49 (((cfg3.win 1).blk t).view.emb y) = V c main_v49 i
  refine congrArg _ (funext fun a => Fin.ext ?_)
  match a with
  | ⟨0, _⟩ => show win3_1.index t (0 : Fin 2) * 5000 + 1 * (y 0).val = (i 0).val; omega
  | ⟨1, _⟩ => show win3_1.index t (1 : Fin 2) * 64 + 1 * (y 1).val = (i 1).val; omega

/-- The degree column's block at point t is the same rows of the column. -/
theorem deg_read3 (c : Dev nD) (t : Fin cfg3.N) (y : S5000x1.Idx) (i : S100000x1.Idx)
    (h0 : (i 0).val = t.val * 5000 + (y 0).val) :
    iblk3 V c 2 t y = V c main_v64 i := by
  obtain ⟨-, -, -, -, e0, e1, -⟩ := idx_facts3 t
  have hy : (y 1).val < 1 := (y 1).isLt
  have hi : (i 1).val < 1 := (i 1).isLt
  unfold iblk3
  show V c main_v64 (((cfg3.win 2).blk t).view.emb y) = V c main_v64 i
  refine congrArg _ (funext fun a => Fin.ext ?_)
  match a with
  | ⟨0, _⟩ => show win3_2.index t (0 : Fin 2) * 5000 + 1 * (y 0).val = (i 0).val; omega
  | ⟨1, _⟩ => show win3_2.index t (1 : Fin 2) * 1 + 1 * (y 1).val = (i 1).val; omega

/-- The bias row is fetched whole at every point. -/
theorem bias_read3 (c : Dev nD) (t : Fin cfg3.N) (y : S1x64.Idx) (i : S1x64.Idx) (h1 : (i 1).val = (y 1).val) :
    iblk3 V c 3 t y = V c main_v63 i := by
  obtain ⟨-, -, -, -, -, -, e0, e1, -⟩ := idx_facts3 t
  have hy : (y 0).val < 1 := (y 0).isLt
  have hi : (i 0).val < 1 := (i 0).isLt
  unfold iblk3
  show V c main_v63 (((cfg3.win 3).blk t).view.emb y) = V c main_v63 i
  refine congrArg _ (funext fun a => Fin.ext ?_)
  match a with
  | ⟨0, _⟩ => show win3_3.index t (0 : Fin 2) * 1 + 1 * (y 0).val = (i 0).val; omega
  | ⟨1, _⟩ => show win3_3.index t (1 : Fin 2) * 64 + 1 * (y 1).val = (i 1).val; omega

/-- Entry y of the output's block at point t is entry (5000 t + y 0, y 1) of the output array. -/
theorem out_emb3 (t : Fin cfg3.N) (y : S5000x64.Idx) :
    ((((cfg3.win 4).blk t).view.emb y) 0).val = t.val * 5000 + (y 0).val
    ∧ ((((cfg3.win 4).blk t).view.emb y) 1).val = (y 1).val := by
  obtain ⟨-, -, -, -, -, -, -, -, e0, e1⟩ := idx_facts3 t
  constructor
  · show win3_4.index t (0 : Fin 2) * 5000 + 1 * (y 0).val = _; omega
  · show win3_4.index t (1 : Fin 2) * 64 + 1 * (y 1).val = _; omega

/-- What point t writes back is block t of the combination of the four arrays as the region finds them. -/
theorem flushed3 (c : Dev nD) (t : Fin cfg3.N) :
    (dat3 (F := Ideal) V c).flushed 4 t
      = ((cfg3.win 4).blk t).view.read (Elt Ideal) (Cert.Spec.comb (V c main_v62) (V c main_v49) (V c main_v64) (V c main_v63)) := by
  show (cfg3.win 4).cut (grid3.coords t) ((dat3 (F := Ideal) V c).after 4 t) = _
  rw [after3_4]
  unfold out3_4
  rw [View.canon_unit_zero comb_zero_offsets]
  simp only [View.ld_unit_zero (S := S5000x1) comb_zero_offsets, View.ld_unit_zero (S := S5000x64) comb_zero_offsets,
    View.ld_unit_zero (S := S1x64) comb_zero_offsets]
  funext j
  obtain ⟨o0, o1⟩ := out_emb3 t j
  show k1_pay1 (F := Ideal) (iblk3 V c 2 t) (iblk3 V c 1 t) (iblk3 V c 0 t) (iblk3 V c 3 t) (ix2 (⟨(j 0).val, (j 0).isLt⟩ : Fin 5000) (⟨(j 1).val, (j 1).isLt⟩ : Fin 64))
    = Cert.Spec.comb (V c main_v62) (V c main_v49) (V c main_v64) (V c main_v63) (((cfg3.win 4).blk t).view.emb j)
  exact comb_point (V c main_v62) (V c main_v49) (V c main_v64) (V c main_v63) (iblk3 V c 2 t) (iblk3 V c 1 t) (iblk3 V c 0 t) (iblk3 V c 3 t)
    ⟨(j 0).val, (j 0).isLt⟩ ⟨(j 1).val, (j 1).isLt⟩ (((cfg3.win 4).blk t).view.emb j)
    (agg_read3 V c t _ _ o0 o1) (xw_read3 V c t _ _ o0 o1) (deg_read3 V c t _ _ o0) (bias_read3 V c t _ _ o1)

/-- An entry of the output array is in point t's block iff each coordinate is in the block's range on its axis. -/
theorem mem_out_blk3 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v65).slice (win3_4.rect t)).set ↔ _
  rw [View.set_slice_whole, Rect.mem_set_unit]
  exact Iff.rfl

/-- Every entry of the output array is written back by some point: row r by point r / 5000. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by show (i 0).val / 5000 < grid3.N; rw [N_3]; omega⟩, rfl⟩
  obtain ⟨-, -, -, -, -, -, -, -, e0, e1⟩ := idx_facts3 t
  refine ⟨t, flush3_4 t, ?_⟩
  rw [mem_out_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The output array of region 3 after its run: the combination of the four arrays as the region finds them. -/
theorem region3 (c : Dev nD) :
    (dat3 (F := Ideal) V c).arrAt 4 cfg3.N = Cert.Spec.comb (V c main_v62) (V c main_v49) (V c main_v64) (V c main_v63) :=
  (dat3 (F := Ideal) V c).arrAt_eq_of_cover 4 (Cert.Spec.comb (V c main_v62) (V c main_v49) (V c main_v64) (V c main_v63))
    (fun t _ => flushed3 V c t) cover3

end Cert.KernelIdeal.RegVal

end
-- ==== Proof.HostMat.lean ====
/-
  The reference's three matrix products, each read entry by entry: a product of a node-feature matrix with a weight
  matrix contracts the features' axis against the weights' first axis, so entry (r, j) is the sum over k of
  x(r, k) · w(k, j). The last layer adds a scalar bias, broadcast from its single entry to every row.
-/
import proofs.«141275_j8727373545871_1_alg».proof.ReferenceIdeal
import proofs.«141275_j8727373545871_1_alg».proof.Proof.Gen.ReferenceIdeal
import proofs.«141275_j8727373545871_1_alg».proof.Proof.Spec
import Idealize.ShloMosaic.Lib.Pipeline.Value
import Idealize.ShloMosaic.Lib.ValueIdx
import Idealize.ShloMosaic.PureOps.Ideal.Laws

noncomputable section

namespace Cert.Spec.Host

open Cert.ReferenceIdeal Idealize.ShloMosaic Idealize.ShloMosaic.ValueIdx

/-- The left operand's row coordinate is the output's row. -/
theorem dot128_lhs_row (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide),
    dif_pos (show (0 : Fin S100000x128.rank) ∈ dot_S100000x128_S128x64_S100000x64_1_0_0_1_n_n.lhsNonContracting by decide)]
  rfl

/-- The right operand's column coordinate is the output's column. -/
theorem dot128_rhs_col (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide),
    dif_pos (show (1 : Fin S128x64.rank) ∈ dot_S100000x128_S128x64_S100000x64_1_0_0_1_n_n.rhsNonContracting by decide)]
  rfl

/-- Entry (r, j) of the product: the sum over the 128 contracted positions k of x(r, k) · w(k, j). -/
theorem dot128_apply (x : FVec Ideal S100000x128 .f32) (w : FVec Ideal S128x64 .f32) (i : S100000x64.Idx) :
    Host.dotGeneral (F := Ideal) dot_S100000x128_S128x64_S100000x64_1_0_0_1_n_n none x w i
      = ∑ k : Fin 128, x (ix2 (i 0) k) * w (ix2 k (i 1)) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx i ((contrEquiv1 dot_S100000x128_S128x64_S100000x64_1_0_0_1_n_n 128 rfl rfl).symm k) = ix2 (i 0) k :=
    funext fun a => Fin.ext (by
      match a with
      | ⟨0, _⟩ => exact dot128_lhs_row _ _
      | ⟨1, _⟩ => exact ((dot_S100000x128_S128x64_S100000x64_1_0_0_1_n_n).lhsIdx_val_of_single rfl i _).trans hk)
  have er : dot_S100000x128_S128x64_S100000x64_1_0_0_1_n_n.rhsIdx i ((contrEquiv1 dot_S100000x128_S128x64_S100000x64_1_0_0_1_n_n 128 rfl rfl).symm k) = ix2 k (i 1) :=
    funext fun a => Fin.ext (by
      match a with
      | ⟨0, _⟩ => exact ((dot_S100000x128_S128x64_S100000x64_1_0_0_1_n_n).rhsIdx_val_of_single rfl i _).trans hk
      | ⟨1, _⟩ => exact dot128_rhs_col _ _)
  rw [el, er]
  rfl

/-- The left operand's row coordinate is the output's row. -/
theorem dot64_lhs_row (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl

/-- The right operand's column coordinate is the output's column. -/
theorem dot64_rhs_col (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- Entry (r, j) of the product: the sum over the 64 contracted positions k of x(r, k) · w(k, j). -/
theorem dot64_apply (x : FVec Ideal S100000x64 .f32) (w : FVec Ideal S64x64 .f32) (i : S100000x64.Idx) :
    Host.dotGeneral (F := Ideal) dot_S100000x64_S64x64_S100000x64_1_0_0_1_n_n none x w i
      = ∑ k : Fin 64, x (ix2 (i 0) k) * w (ix2 k (i 1)) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx i ((contrEquiv1 dot_S100000x64_S64x64_S100000x64_1_0_0_1_n_n 64 rfl rfl).symm k) = ix2 (i 0) k :=
    funext fun a => Fin.ext (by
      match a with
      | ⟨0, _⟩ => exact dot64_lhs_row _ _
      | ⟨1, _⟩ => exact ((dot_S100000x64_S64x64_S100000x64_1_0_0_1_n_n).lhsIdx_val_of_single rfl i _).trans hk)
  have er : dot_S100000x64_S64x64_S100000x64_1_0_0_1_n_n.rhsIdx i ((contrEquiv1 dot_S100000x64_S64x64_S100000x64_1_0_0_1_n_n 64 rfl rfl).symm k) = ix2 k (i 1) :=
    funext fun a => Fin.ext (by
      match a with
      | ⟨0, _⟩ => exact ((dot_S100000x64_S64x64_S100000x64_1_0_0_1_n_n).rhsIdx_val_of_single rfl i _).trans hk
      | ⟨1, _⟩ => exact dot64_rhs_col _ _)
  rw [el, er]
  rfl

/-- The left operand's row coordinate is the output's row. -/
theorem dot1_lhs_row (i : S100000x1.Idx) (q : dot_S100000x64_S64x1_S100000x1_1_0_0_1_n_n.contr.Idx) :
    (dot_S100000x64_S64x1_S100000x1_1_0_0_1_n_n.lhsIdx i q 0).val = (i 0).val := by
  unfold DotDims.lhsIdx
  rw [dif_neg (show ¬(0 : Fin S100000x64.rank) ∈ dot_S100000x64_S64x1_S100000x1_1_0_0_1_n_n.lhsBatch by decide),
    dif_pos (show (0 : Fin S100000x64.rank) ∈ dot_S100000x64_S64x1_S100000x1_1_0_0_1_n_n.lhsNonContracting by decide)]
  rfl

/-- The right operand's column coordinate is the output's column. -/
theorem dot1_rhs_col (i : S100000x1.Idx) (q : dot_S100000x64_S64x1_S100000x1_1_0_0_1_n_n.contr.Idx) :
    (dot_S100000x64_S64x1_S100000x1_1_0_0_1_n_n.rhsIdx i q 1).val = (i 1).val := by
  unfold DotDims.rhsIdx
  rw [dif_neg (show ¬(1 : Fin S64x1.rank) ∈ dot_S100000x64_S64x1_S100000x1_1_0_0_1_n_n.rhsBatch by decide),
    dif_pos (show (1 : Fin S64x1.rank) ∈ dot_S100000x64_S64x1_S100000x1_1_0_0_1_n_n.rhsNonContracting by decide)]
  rfl

/-- Entry (r, j) of the product: the sum over the 64 contracted positions k of x(r, k) · w(k, j). -/
theorem dot1_apply (x : FVec Ideal S100000x64 .f32) (w : FVec Ideal S64x1 .f32) (i : S100000x1.Idx) :
    Host.dotGeneral (F := Ideal) dot_S100000x64_S64x1_S100000x1_1_0_0_1_n_n none x w i
      = ∑ k : Fin 64, x (ix2 (i 0) k) * w (ix2 k (i 1)) := by
  simp only [Host.dotGeneral]
  rw [Ideal.dotGeneral_apply, ← Equiv.sum_comp (contrEquiv1 dot_S100000x64_S64x1_S100000x1_1_0_0_1_n_n 64 rfl rfl).symm]
  refine Finset.sum_congr rfl fun k _ => ?_
  have hk := contrEquiv1_symm_val dot_S100000x64_S64x1_S100000x1_1_0_0_1_n_n 64 rfl rfl k
  have el : dot_S100000x64_S64x1_S100000x1_1_0_0_1_n_n.lhsIdx i ((contrEquiv1 dot_S100000x64_S64x1_S100000x1_1_0_0_1_n_n 64 rfl rfl).symm k) = ix2 (i 0) k :=
    funext fun a => Fin.ext (by
      match a with
      | ⟨0, _⟩ => exact dot1_lhs_row _ _
      | ⟨1, _⟩ => exact ((dot_S100000x64_S64x1_S100000x1_1_0_0_1_n_n).lhsIdx_val_of_single rfl i _).trans hk)
  have er : dot_S100000x64_S64x1_S100000x1_1_0_0_1_n_n.rhsIdx i ((contrEquiv1 dot_S100000x64_S64x1_S100000x1_1_0_0_1_n_n 64 rfl rfl).symm k) = ix2 k (i 1) :=
    funext fun a => Fin.ext (by
      match a with
      | ⟨0, _⟩ => exact ((dot_S100000x64_S64x1_S100000x1_1_0_0_1_n_n).rhsIdx_val_of_single rfl i _).trans hk
      | ⟨1, _⟩ => exact dot1_rhs_col _ _)
  rw [el, er]
  rfl

/-- x · w for x of 128 columns. -/
theorem dot128_eq (x : FVec Ideal S100000x128 .f32) (w : FVec Ideal S128x64 .f32) :
    Host.dotGeneral (F := Ideal) dot_S100000x128_S128x64_S100000x64_1_0_0_1_n_n none x w = Cert.Spec.mm128 x w :=
  funext fun i => dot128_apply x w i

/-- x · w for x of 64 columns. -/
theorem dot64_eq (x : FVec Ideal S100000x64 .f32) (w : FVec Ideal S64x64 .f32) :
    Host.dotGeneral (F := Ideal) dot_S100000x64_S64x64_S100000x64_1_0_0_1_n_n none x w = Cert.Spec.mm64 x w :=
  funext fun i => dot64_apply x w i

/-- A one-entry vector has one index. -/
theorem idx_one_unique (k k' : S1.Idx) : k = k' :=
  funext fun a => match a with
    | ⟨0, _⟩ => Fin.ext (by
        have h : (k 0).val < 1 := (k 0).isLt
        have h' : (k' 0).val < 1 := (k' 0).isLt
        show (k 0).val = (k' 0).val
        omega)

/-- x · w + b for a single output column: the bias, broadcast first to 1 × 1 and then down the rows, is the
    one entry of b at every row; so is its 1 × 1 recast. -/
theorem lin_eq (x : FVec Ideal S100000x64 .f32) (w : FVec Ideal S64x1 .f32) (b : FVec Ideal S1 .f32)
    (hs : S1.ShapeCasts S1x1) :
    addf (Host.dotGeneral (F := Ideal) dot_S100000x64_S64x1_S100000x1_1_0_0_1_n_n none x w)
        (broadcastInDim S100000x1 ![0, 1] Facts₀.bcast_S1x1_S100000x1_0_1
          (broadcastInDim S1x1 ![1] Facts₀.bcast_S1_S1x1_1 b))
      = Cert.Spec.lin x w (shapeCast S1x1 b hs) := by
  funext i
  have e1 : broadcastInDim S100000x1 ![0, 1] Facts₀.bcast_S1x1_S100000x1_0_1
      (broadcastInDim S1x1 ![1] Facts₀.bcast_S1_S1x1_1 b) i = b (ix1 0) := by
    unfold broadcastInDim
    exact congrArg b (idx_one_unique _ _)
  have e2 : shapeCast S1x1 b hs (ix2 0 0) = b (ix1 0) := by
    unfold shapeCast
    exact congrArg b (idx_one_unique _ _)
  rw [addf_apply, dot1_apply, e1]
  show _ = (∑ k : Fin 64, x (ix2 (i 0) k) * w (ix2 k (i 1))) + shapeCast S1x1 b hs (ix2 0 0)
  rw [e2]

end Cert.Spec.Host

end
-- ==== Proof.HostComb.lean ====
/-
  One layer's self-loop combination as the reference spells it. The reference scales the transformed features by
  the degree factor, a vector over the nodes that it broadcasts to a column and then across the features; it adds
  the bias, a vector over the features that it broadcasts to a row and then down the nodes; and its relu is a
  maximum against a zero broadcast everywhere. Entry (r, j) therefore reads the degree factor at r, the bias at j and
  the zero, which is the combination max(agg + d · xw + b, 0) at the column and the row those two vectors reshape to.
-/
import proofs.«141275_j8727373545871_1_alg».proof.ReferenceIdeal
import proofs.«141275_j8727373545871_1_alg».proof.Proof.Gen.ReferenceIdeal
import proofs.«141275_j8727373545871_1_alg».proof.Proof.Spec
import Idealize.ShloMosaic.Lib.Pipeline.Value
import Idealize.ShloMosaic.Lib.ValueIdx

noncomputable section

namespace Cert.Spec.Host

open Cert.ReferenceIdeal Cert.ReferenceIdeal.Gen Idealize.ShloMosaic Idealize.ShloMosaic.ValueIdx

/-- The degree factor broadcast to a column and then across the features reads, at (r, j), the vector at r —
    which is where the column it reshapes to reads at (r, 0). -/
theorem scale_apply (d2 : FVec Ideal S100000 .f32) (hd : S100000.ShapeCasts S100000x1) (p : Fin 100000) (q : Fin 64) :
    broadcastInDim S100000x64 ![0, 1] bcast_S100000x1_S100000x64_0_1
        (broadcastInDim S100000x1 ![0] bcast_S100000_S100000x1_0 d2) (ix2 p q)
      = shapeCast S100000x1 d2 hd (ix2 p (0 : Fin 1)) := by
  refine (broadcastInDim_apply _ bcast_S100000x1_S100000x64_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])).trans ?_
  refine (broadcastInDim_apply _ bcast_S100000_S100000x1_0 d2 (ix2 p (0 : Fin 1)) (ix1 p) (fun a => match a with
    | ⟨0, _⟩ => by show p.val = if (100000 : Nat) = 1 then 0 else p.val; rw [if_neg (by decide)])).trans ?_
  exact (shapeCast_apply d2 hd (ix2 p (0 : Fin 1)) (ix1 p) (by
    rw [Shape.rowMajor_val_one, Shape.rowMajor_val_two]; show p.val = p.val * 1 + 0; omega)).symm

/-- The bias broadcast to a row and then down the nodes reads, at (r, j), the vector at j — which is where the row
    it reshapes to reads at (0, j). -/
theorem bias_apply (b : FVec Ideal S64 .f32) (hb : S64.ShapeCasts S1x64) (p : Fin 100000) (q : Fin 64) :
    broadcastInDim S100000x64 ![0, 1] bcast_S1x64_S100000x64_0_1
        (broadcastInDim S1x64 ![1] bcast_S64_S1x64_1 b) (ix2 p q)
      = shapeCast S1x64 b hb (ix2 (0 : Fin 1) q) := by
  refine (broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  refine (broadcastInDim_apply _ bcast_S64_S1x64_1 b (ix2 (0 : Fin 1) q) (ix1 q) (fun a => match a with
    | ⟨0, _⟩ => by show q.val = if (64 : Nat) = 1 then 0 else q.val; rw [if_neg (by decide)])).trans ?_
  exact (shapeCast_apply b hb (ix2 (0 : Fin 1) q) (ix1 q) (by
    rw [Shape.rowMajor_val_one, Shape.rowMajor_val_two]; show q.val = 0 * 64 + q.val; omega)).symm

/-- The zero of relu, a scalar constant broadcast everywhere, reads that constant at every entry. -/
theorem zero_apply (p : Fin 100000) (q : Fin 64) :
    broadcastInDim S100000x64 ![] bcast_S_S100000x64 (constant (F := Ideal) S_ .f32 0x00000000#32) (ix2 p q)
      = Ideal.ofBits .f32 0x00000000#32 :=
  (broadcastInDim_apply _ bcast_S_S100000x64 _ (ix2 p q) ix0 (fun a => a.elim0)).trans rfl

/-- The reference's combination of one layer is the specification's, at the degree factor reshaped to a column and the
    bias reshaped to a row. -/
theorem comb_eq (agg xw : FVec Ideal S100000x64 .f32) (d2 : FVec Ideal S100000 .f32) (b : FVec Ideal S64 .f32)
    (hd : S100000.ShapeCasts S100000x1) (hb : S64.ShapeCasts S1x64) :
    maximumf (addf (addf agg (mulf (broadcastInDim S100000x64 ![0, 1] bcast_S100000x1_S100000x64_0_1 (broadcastInDim S100000x1 ![0] bcast_S100000_S100000x1_0 d2)) xw)) (broadcastInDim S100000x64 ![0, 1] bcast_S1x64_S100000x64_0_1 (broadcastInDim S1x64 ![1] bcast_S64_S1x64_1 b))) (broadcastInDim S100000x64 ![] bcast_S_S100000x64 (constant (F := Ideal) S_ .f32 0x00000000#32))
      = Cert.Spec.comb agg xw (shapeCast S100000x1 d2 hd) (shapeCast S1x64 b hb) := by
  funext i
  obtain ⟨p, q, rfl⟩ : ∃ (p : Fin 100000) (q : Fin 64), i = ix2 p q := ⟨i 0, i 1, eq_ix2 i⟩
  rw [maximumf_apply, addf_apply, addf_apply, mulf_apply, scale_apply d2 hd p q, bias_apply b hb p q, zero_apply p q]
  rfl

end Cert.Spec.Host

end
-- ==== Proof.Chain.lean ====
/-
  What every buffer that a later segment reads holds at each of the twelve boundaries of the kernel's @main, as a
  stage of the reference: the edge endpoints, the normalisation norm(e) = dis(src e) · w(e) · dis(dst e) and dis², the
  transposed weights, and after each launch its output — the first layer's x W1ᵀ, its combination
  max(agg + dis² · xw + b1, 0), the second layer's product and combination, and the head's product plus bias.
  A stretch of host operations rewrites the buffers its operations write and keeps the rest, a launch rewrites its
  output array and keeps every buffer that is not one of its arrays; so each fact follows from the facts one
  boundary earlier. The kernel computes the degree and the normalisation once and the reference once per layer: the
  two are the same operations of the same arguments, which is what the closing comparisons of the second layer's
  aggregation and combination check.
-/
import proofs.«141275_j8727373545871_1_alg».proof.Proof.Gen.KernelIdeal.Frame
import proofs.«141275_j8727373545871_1_alg».proof.Proof.Gen.ReferenceIdeal.Read
import proofs.«141275_j8727373545871_1_alg».proof.Proof.RegMat
import proofs.«141275_j8727373545871_1_alg».proof.Proof.RegComb
import proofs.«141275_j8727373545871_1_alg».proof.Proof.HostMat
import proofs.«141275_j8727373545871_1_alg».proof.Proof.HostComb

set_option maxRecDepth 20000
set_option maxHeartbeats 2000000

noncomputable section

namespace Cert.KernelIdeal.Whole

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

set_option quotPrecheck false
local notation "a0" => m ((c.tc : Thread nD τ).loc main_arg0)
local notation "a1" => m ((c.tc : Thread nD τ).loc main_arg1)
local notation "a2" => m ((c.tc : Thread nD τ).loc main_arg2)
local notation "a4" => m ((c.tc : Thread nD τ).loc main_arg4)
local notation "a5" => m ((c.tc : Thread nD τ).loc main_arg5)
local notation "a6" => m ((c.tc : Thread nD τ).loc main_arg6)
local notation "a7" => m ((c.tc : Thread nD τ).loc main_arg7)
local notation "a8" => m ((c.tc : Thread nD τ).loc main_arg8)
local notation "a9" => m ((c.tc : Thread nD τ).loc main_arg9)

theorem W1_v1 : W1 m ρ c (Proc.devRef .tc main_v1) = val_main_v1 (F := Ideal) a1 := by
  show StableHlo.after hostOps0 (W0 m ρ c) (Proc.devRef .tc main_v1) = _
  after_results_simp <;> rfl

theorem W1_v3 : W1 m ρ c (Proc.devRef .tc main_v3) = val_main_v3 (F := Ideal) a1 := by
  show StableHlo.after hostOps0 (W0 m ρ c) (Proc.devRef .tc main_v3) = _
  after_results_simp <;> rfl

theorem W1_v10 : W1 m ρ c (Proc.devRef .tc main_v10) = val_main_v12 (F := Ideal) a1 a2 := by
  show StableHlo.after hostOps0 (W0 m ρ c) (Proc.devRef .tc main_v10) = _
  after_results_simp <;> rfl

theorem W1_v11 : W1 m ρ c (Proc.devRef .tc main_v11) = val_main_v13 (F := Ideal) a1 a2 := by
  show StableHlo.after hostOps0 (W0 m ρ c) (Proc.devRef .tc main_v11) = _
  after_results_simp <;> rfl

theorem W1_cst_2 : W1 m ρ c (Proc.devRef .tc main_cst_2) = val_main_cst_2 (F := Ideal) := by
  show StableHlo.after hostOps0 (W0 m ρ c) (Proc.devRef .tc main_cst_2) = _
  after_results_simp <;> rfl

theorem W1_arg0 : W1 m ρ c (Proc.devRef .tc main_arg0) = a0 := by
  show StableHlo.after hostOps0 (W0 m ρ c) (Proc.devRef .tc main_arg0) = _
  after_results_simp <;> rfl

theorem W1_arg2 : W1 m ρ c (Proc.devRef .tc main_arg2) = a2 := by
  show StableHlo.after hostOps0 (W0 m ρ c) (Proc.devRef .tc main_arg2) = _
  after_results_simp <;> rfl

theorem W1_arg4 : W1 m ρ c (Proc.devRef .tc main_arg4) = a4 := by
  show StableHlo.after hostOps0 (W0 m ρ c) (Proc.devRef .tc main_arg4) = _
  after_results_simp <;> rfl

theorem W1_arg5 : W1 m ρ c (Proc.devRef .tc main_arg5) = a5 := by
  show StableHlo.after hostOps0 (W0 m ρ c) (Proc.devRef .tc main_arg5) = _
  after_results_simp <;> rfl

theorem W1_arg6 : W1 m ρ c (Proc.devRef .tc main_arg6) = a6 := by
  show StableHlo.after hostOps0 (W0 m ρ c) (Proc.devRef .tc main_arg6) = _
  after_results_simp <;> rfl

theorem W1_arg7 : W1 m ρ c (Proc.devRef .tc main_arg7) = a7 := by
  show StableHlo.after hostOps0 (W0 m ρ c) (Proc.devRef .tc main_arg7) = _
  after_results_simp <;> rfl

theorem W1_arg8 : W1 m ρ c (Proc.devRef .tc main_arg8) = a8 := by
  show StableHlo.after hostOps0 (W0 m ρ c) (Proc.devRef .tc main_arg8) = _
  after_results_simp <;> rfl

theorem W1_arg9 : W1 m ρ c (Proc.devRef .tc main_arg9) = a9 := by
  show StableHlo.after hostOps0 (W0 m ρ c) (Proc.devRef .tc main_arg9) = _
  after_results_simp <;> rfl

/-- The select of the degree's positivity test: the outlined function's three operations read back, their
    typed references' transports being the identity. -/
theorem where_v12 (X : Valuation τ sig (Elt Ideal)) :
    StableHlo.after hostOps0_1 X (Proc.devRef .tc main_v12)
      = select (X (Proc.devRef .tc main_v10)) (X (Proc.devRef .tc main_v11))
          (broadcastInDim S100000 ![] bcast_S_S100000 (id (X (Proc.devRef .tc main_cst_2)))) := by
  after_results_simp
  rfl

theorem W2_v12 : W2 m ρ c (Proc.devRef .tc main_v12) = val_main_v14 (F := Ideal) a1 a2 :=
  (where_v12 (W1 m ρ c)).trans (by rw [W1_v10 m ρ c, W1_v11 m ρ c, W1_cst_2 m ρ c]; rfl)

theorem W2_v1 : W2 m ρ c (Proc.devRef .tc main_v1) = val_main_v1 (F := Ideal) a1 := by
  show StableHlo.after hostOps0_1 (W1 m ρ c) (Proc.devRef .tc main_v1) = _
  have h := W1_v1 m ρ c
  generalize W1 m ρ c = X at h ⊢
  after_results_simp
  exact h

theorem W2_v3 : W2 m ρ c (Proc.devRef .tc main_v3) = val_main_v3 (F := Ideal) a1 := by
  show StableHlo.after hostOps0_1 (W1 m ρ c) (Proc.devRef .tc main_v3) = _
  have h := W1_v3 m ρ c
  generalize W1 m ρ c = X at h ⊢
  after_results_simp
  exact h

theorem W2_arg0 : W2 m ρ c (Proc.devRef .tc main_arg0) = a0 := by
  show StableHlo.after hostOps0_1 (W1 m ρ c) (Proc.devRef .tc main_arg0) = _
  have h := W1_arg0 m ρ c
  generalize W1 m ρ c = X at h ⊢
  after_results_simp
  exact h

theorem W2_arg2 : W2 m ρ c (Proc.devRef .tc main_arg2) = a2 := by
  show StableHlo.after hostOps0_1 (W1 m ρ c) (Proc.devRef .tc main_arg2) = _
  have h := W1_arg2 m ρ c
  generalize W1 m ρ c = X at h ⊢
  after_results_simp
  exact h

theorem W2_arg4 : W2 m ρ c (Proc.devRef .tc main_arg4) = a4 := by
  show StableHlo.after hostOps0_1 (W1 m ρ c) (Proc.devRef .tc main_arg4) = _
  have h := W1_arg4 m ρ c
  generalize W1 m ρ c = X at h ⊢
  after_results_simp
  exact h

theorem W2_arg5 : W2 m ρ c (Proc.devRef .tc main_arg5) = a5 := by
  show StableHlo.after hostOps0_1 (W1 m ρ c) (Proc.devRef .tc main_arg5) = _
  have h := W1_arg5 m ρ c
  generalize W1 m ρ c = X at h ⊢
  after_results_simp
  exact h

theorem W2_arg6 : W2 m ρ c (Proc.devRef .tc main_arg6) = a6 := by
  show StableHlo.after hostOps0_1 (W1 m ρ c) (Proc.devRef .tc main_arg6) = _
  have h := W1_arg6 m ρ c
  generalize W1 m ρ c = X at h ⊢
  after_results_simp
  exact h

theorem W2_arg7 : W2 m ρ c (Proc.devRef .tc main_arg7) = a7 := by
  show StableHlo.after hostOps0_1 (W1 m ρ c) (Proc.devRef .tc main_arg7) = _
  have h := W1_arg7 m ρ c
  generalize W1 m ρ c = X at h ⊢
  after_results_simp
  exact h

theorem W2_arg8 : W2 m ρ c (Proc.devRef .tc main_arg8) = a8 := by
  show StableHlo.after hostOps0_1 (W1 m ρ c) (Proc.devRef .tc main_arg8) = _
  have h := W1_arg8 m ρ c
  generalize W1 m ρ c = X at h ⊢
  after_results_simp
  exact h

theorem W2_arg9 : W2 m ρ c (Proc.devRef .tc main_arg9) = a9 := by
  show StableHlo.after hostOps0_1 (W1 m ρ c) (Proc.devRef .tc main_arg9) = _
  have h := W1_arg9 m ρ c
  generalize W1 m ρ c = X at h ⊢
  after_results_simp
  exact h

theorem W3_v1 : W3 m ρ c (Proc.devRef .tc main_v1) = val_main_v1 (F := Ideal) a1 := by
  show StableHlo.after hostOps0_2 (W2 m ρ c) (Proc.devRef .tc main_v1) = _
  have h := W2_v1 m ρ c
  generalize W2 m ρ c = X at h ⊢
  after_results_simp
  exact h

theorem W3_v3 : W3 m ρ c (Proc.devRef .tc main_v3) = val_main_v3 (F := Ideal) a1 := by
  show StableHlo.after hostOps0_2 (W2 m ρ c) (Proc.devRef .tc main_v3) = _
  have h := W2_v3 m ρ c
  generalize W2 m ρ c = X at h ⊢
  after_results_simp
  exact h

theorem W3_arg0 : W3 m ρ c (Proc.devRef .tc main_arg0) = a0 := by
  show StableHlo.after hostOps0_2 (W2 m ρ c) (Proc.devRef .tc main_arg0) = _
  have h := W2_arg0 m ρ c
  generalize W2 m ρ c = X at h ⊢
  after_results_simp
  exact h

theorem W3_arg5 : W3 m ρ c (Proc.devRef .tc main_arg5) = a5 := by
  show StableHlo.after hostOps0_2 (W2 m ρ c) (Proc.devRef .tc main_arg5) = _
  have h := W2_arg5 m ρ c
  generalize W2 m ρ c = X at h ⊢
  after_results_simp
  exact h

theorem W3_arg6 : W3 m ρ c (Proc.devRef .tc main_arg6) = a6 := by
  show StableHlo.after hostOps0_2 (W2 m ρ c) (Proc.devRef .tc main_arg6) = _
  have h := W2_arg6 m ρ c
  generalize W2 m ρ c = X at h ⊢
  after_results_simp
  exact h

theorem W3_arg7 : W3 m ρ c (Proc.devRef .tc main_arg7) = a7 := by
  show StableHlo.after hostOps0_2 (W2 m ρ c) (Proc.devRef .tc main_arg7) = _
  have h := W2_arg7 m ρ c
  generalize W2 m ρ c = X at h ⊢
  after_results_simp
  exact h

theorem W3_arg8 : W3 m ρ c (Proc.devRef .tc main_arg8) = a8 := by
  show StableHlo.after hostOps0_2 (W2 m ρ c) (Proc.devRef .tc main_arg8) = _
  have h := W2_arg8 m ρ c
  generalize W2 m ρ c = X at h ⊢
  after_results_simp
  exact h

theorem W3_arg9 : W3 m ρ c (Proc.devRef .tc main_arg9) = a9 := by
  show StableHlo.after hostOps0_2 (W2 m ρ c) (Proc.devRef .tc main_arg9) = _
  have h := W2_arg9 m ρ c
  generalize W2 m ρ c = X at h ⊢
  after_results_simp
  exact h

theorem W3_v28 : W3 m ρ c (Proc.devRef .tc main_v28) = val_main_v30 (F := Ideal) a1 a2 := by
  show StableHlo.after hostOps0_2 (W2 m ρ c) (Proc.devRef .tc main_v28) = _
  have h0 := W2_v12 m ρ c
  have h1 := W2_v1 m ρ c
  have h2 := W2_v3 m ρ c
  have h3 := W2_arg2 m ρ c
  generalize W2 m ρ c = X at h0 h1 h2 h3 ⊢
  after_results_simp
  rw [h0, h1, h2, h3]
  rfl

theorem W3_v29 : W3 m ρ c (Proc.devRef .tc main_v29) = val_main_v44 (F := Ideal) a1 a2 := by
  show StableHlo.after hostOps0_2 (W2 m ρ c) (Proc.devRef .tc main_v29) = _
  have h0 := W2_v12 m ρ c
  generalize W2 m ρ c = X at h0 ⊢
  after_results_simp
  rw [h0]
  rfl

theorem W3_v30 : W3 m ρ c (Proc.devRef .tc main_v30) = val_main_v4 (F := Ideal) a4 := by
  show StableHlo.after hostOps0_2 (W2 m ρ c) (Proc.devRef .tc main_v30) = _
  have h0 := W2_arg4 m ρ c
  generalize W2 m ρ c = X at h0 ⊢
  after_results_simp
  rw [h0]
  rfl

theorem W4_v1 : W4 m ρ c (Proc.devRef .tc main_v1) = val_main_v1 (F := Ideal) a1 :=
  (W4_of_ne m ρ c main_v1 (by decide)).trans (W3_v1 m ρ c)

theorem W4_v3 : W4 m ρ c (Proc.devRef .tc main_v3) = val_main_v3 (F := Ideal) a1 :=
  (W4_of_ne m ρ c main_v3 (by decide)).trans (W3_v3 m ρ c)

theorem W4_v28 : W4 m ρ c (Proc.devRef .tc main_v28) = val_main_v30 (F := Ideal) a1 a2 :=
  (W4_of_ne m ρ c main_v28 (by decide)).trans (W3_v28 m ρ c)

theorem W4_v29 : W4 m ρ c (Proc.devRef .tc main_v29) = val_main_v44 (F := Ideal) a1 a2 :=
  (W4_of_ne m ρ c main_v29 (by decide)).trans (W3_v29 m ρ c)

theorem W4_arg5 : W4 m ρ c (Proc.devRef .tc main_arg5) = a5 :=
  (W4_of_ne m ρ c main_arg5 (by decide)).trans (W3_arg5 m ρ c)

theorem W4_arg6 : W4 m ρ c (Proc.devRef .tc main_arg6) = a6 :=
  (W4_of_ne m ρ c main_arg6 (by decide)).trans (W3_arg6 m ρ c)

theorem W4_arg7 : W4 m ρ c (Proc.devRef .tc main_arg7) = a7 :=
  (W4_of_ne m ρ c main_arg7 (by decide)).trans (W3_arg7 m ρ c)

theorem W4_arg8 : W4 m ρ c (Proc.devRef .tc main_arg8) = a8 :=
  (W4_of_ne m ρ c main_arg8 (by decide)).trans (W3_arg8 m ρ c)

theorem W4_arg9 : W4 m ρ c (Proc.devRef .tc main_arg9) = a9 :=
  (W4_of_ne m ρ c main_arg9 (by decide)).trans (W3_arg9 m ρ c)

theorem W4_v31 : W4 m ρ c (Proc.devRef .tc main_v31) = val_main_v5 (F := Ideal) a0 a4 :=
  (W4_arr m ρ c 2).trans ((Cert.KernelIdeal.RegVal.region0 (V3 m ρ) c).trans (by
    show Cert.Spec.mm128 (W3 m ρ c (Proc.devRef .tc main_arg0)) (W3 m ρ c (Proc.devRef .tc main_v30)) = _
    rw [W3_arg0 m ρ c, W3_v30 m ρ c]
    exact (Cert.Spec.Host.dot128_eq _ _).symm))

theorem W5_v31 : W5 m ρ c (Proc.devRef .tc main_v31) = val_main_v5 (F := Ideal) a0 a4 := by
  show StableHlo.after hostOps1 (W4 m ρ c) (Proc.devRef .tc main_v31) = _
  have h := W4_v31 m ρ c
  generalize W4 m ρ c = X at h ⊢
  after_results_simp
  exact h

theorem W5_v1 : W5 m ρ c (Proc.devRef .tc main_v1) = val_main_v1 (F := Ideal) a1 := by
  show StableHlo.after hostOps1 (W4 m ρ c) (Proc.devRef .tc main_v1) = _
  have h := W4_v1 m ρ c
  generalize W4 m ρ c = X at h ⊢
  after_results_simp
  exact h

theorem W5_v3 : W5 m ρ c (Proc.devRef .tc main_v3) = val_main_v3 (F := Ideal) a1 := by
  show StableHlo.after hostOps1 (W4 m ρ c) (Proc.devRef .tc main_v3) = _
  have h := W4_v3 m ρ c
  generalize W4 m ρ c = X at h ⊢
  after_results_simp
  exact h

theorem W5_v28 : W5 m ρ c (Proc.devRef .tc main_v28) = val_main_v30 (F := Ideal) a1 a2 := by
  show StableHlo.after hostOps1 (W4 m ρ c) (Proc.devRef .tc main_v28) = _
  have h := W4_v28 m ρ c
  generalize W4 m ρ c = X at h ⊢
  after_results_simp
  exact h

theorem W5_v29 : W5 m ρ c (Proc.devRef .tc main_v29) = val_main_v44 (F := Ideal) a1 a2 := by
  show StableHlo.after hostOps1 (W4 m ρ c) (Proc.devRef .tc main_v29) = _
  have h := W4_v29 m ρ c
  generalize W4 m ρ c = X at h ⊢
  after_results_simp
  exact h

theorem W5_arg6 : W5 m ρ c (Proc.devRef .tc main_arg6) = a6 := by
  show StableHlo.after hostOps1 (W4 m ρ c) (Proc.devRef .tc main_arg6) = _
  have h := W4_arg6 m ρ c
  generalize W4 m ρ c = X at h ⊢
  after_results_simp
  exact h

theorem W5_arg7 : W5 m ρ c (Proc.devRef .tc main_arg7) = a7 := by
  show StableHlo.after hostOps1 (W4 m ρ c) (Proc.devRef .tc main_arg7) = _
  have h := W4_arg7 m ρ c
  generalize W4 m ρ c = X at h ⊢
  after_results_simp
  exact h

theorem W5_arg8 : W5 m ρ c (Proc.devRef .tc main_arg8) = a8 := by
  show StableHlo.after hostOps1 (W4 m ρ c) (Proc.devRef .tc main_arg8) = _
  have h := W4_arg8 m ρ c
  generalize W4 m ρ c = X at h ⊢
  after_results_simp
  exact h

theorem W5_arg9 : W5 m ρ c (Proc.devRef .tc main_arg9) = a9 := by
  show StableHlo.after hostOps1 (W4 m ρ c) (Proc.devRef .tc main_arg9) = _
  have h := W4_arg9 m ρ c
  generalize W4 m ρ c = X at h ⊢
  after_results_simp
  exact h

theorem W5_v44 : W5 m ρ c (Proc.devRef .tc main_v44) = val_main_v43 (F := Ideal) a0 a1 a2 a4 := by
  show StableHlo.after hostOps1 (W4 m ρ c) (Proc.devRef .tc main_v44) = _
  have h0 := W4_v28 m ρ c
  have h1 := W4_v1 m ρ c
  have h2 := W4_v3 m ρ c
  have h3 := W4_v31 m ρ c
  generalize W4 m ρ c = X at h0 h1 h2 h3 ⊢
  after_results_simp
  rw [h0, h1, h2, h3]
  rfl

theorem W5_v45 : W5 m ρ c (Proc.devRef .tc main_v45) = shapeCast S1x64 a5 shapeCasts_S64_S1x64 := by
  show StableHlo.after hostOps1 (W4 m ρ c) (Proc.devRef .tc main_v45) = _
  have h0 := W4_arg5 m ρ c
  generalize W4 m ρ c = X at h0 ⊢
  after_results_simp
  rw [h0]
  rfl

theorem W5_v46 : W5 m ρ c (Proc.devRef .tc main_v46) = shapeCast S100000x1 (val_main_v44 (F := Ideal) a1 a2) shapeCasts_S100000_S100000x1 := by
  show StableHlo.after hostOps1 (W4 m ρ c) (Proc.devRef .tc main_v46) = _
  have h0 := W4_v29 m ρ c
  generalize W4 m ρ c = X at h0 ⊢
  after_results_simp
  rw [h0]
  rfl

theorem W6_v1 : W6 m ρ c (Proc.devRef .tc main_v1) = val_main_v1 (F := Ideal) a1 :=
  (W6_of_ne m ρ c main_v1 (by decide)).trans (W5_v1 m ρ c)

theorem W6_v3 : W6 m ρ c (Proc.devRef .tc main_v3) = val_main_v3 (F := Ideal) a1 :=
  (W6_of_ne m ρ c main_v3 (by decide)).trans (W5_v3 m ρ c)

theorem W6_v28 : W6 m ρ c (Proc.devRef .tc main_v28) = val_main_v30 (F := Ideal) a1 a2 :=
  (W6_of_ne m ρ c main_v28 (by decide)).trans (W5_v28 m ρ c)

theorem W6_v29 : W6 m ρ c (Proc.devRef .tc main_v29) = val_main_v44 (F := Ideal) a1 a2 :=
  (W6_of_ne m ρ c main_v29 (by decide)).trans (W5_v29 m ρ c)

theorem W6_arg6 : W6 m ρ c (Proc.devRef .tc main_arg6) = a6 :=
  (W6_of_ne m ρ c main_arg6 (by decide)).trans (W5_arg6 m ρ c)

theorem W6_arg7 : W6 m ρ c (Proc.devRef .tc main_arg7) = a7 :=
  (W6_of_ne m ρ c main_arg7 (by decide)).trans (W5_arg7 m ρ c)

theorem W6_arg8 : W6 m ρ c (Proc.devRef .tc main_arg8) = a8 :=
  (W6_of_ne m ρ c main_arg8 (by decide)).trans (W5_arg8 m ρ c)

theorem W6_arg9 : W6 m ρ c (Proc.devRef .tc main_arg9) = a9 :=
  (W6_of_ne m ρ c main_arg9 (by decide)).trans (W5_arg9 m ρ c)

theorem W6_v47 : W6 m ρ c (Proc.devRef .tc main_v47) = val_main_v52 (F := Ideal) a0 a1 a2 a4 a5 :=
  (W6_arr m ρ c 4).trans ((Cert.KernelIdeal.RegVal.region1 (V5 m ρ) c).trans (by
    show Cert.Spec.comb (W5 m ρ c (Proc.devRef .tc main_v44)) (W5 m ρ c (Proc.devRef .tc main_v31)) (W5 m ρ c (Proc.devRef .tc main_v46)) (W5 m ρ c (Proc.devRef .tc main_v45)) = _
    rw [W5_v44 m ρ c, W5_v31 m ρ c, W5_v46 m ρ c, W5_v45 m ρ c]
    exact (Cert.Spec.Host.comb_eq _ _ _ _ _ _).symm))

theorem W7_v47 : W7 m ρ c (Proc.devRef .tc main_v47) = val_main_v52 (F := Ideal) a0 a1 a2 a4 a5 := by
  show StableHlo.after hostOps2 (W6 m ρ c) (Proc.devRef .tc main_v47) = _
  have h := W6_v47 m ρ c
  generalize W6 m ρ c = X at h ⊢
  after_results_simp
  exact h

theorem W7_v1 : W7 m ρ c (Proc.devRef .tc main_v1) = val_main_v1 (F := Ideal) a1 := by
  show StableHlo.after hostOps2 (W6 m ρ c) (Proc.devRef .tc main_v1) = _
  have h := W6_v1 m ρ c
  generalize W6 m ρ c = X at h ⊢
  after_results_simp
  exact h

theorem W7_v3 : W7 m ρ c (Proc.devRef .tc main_v3) = val_main_v3 (F := Ideal) a1 := by
  show StableHlo.after hostOps2 (W6 m ρ c) (Proc.devRef .tc main_v3) = _
  have h := W6_v3 m ρ c
  generalize W6 m ρ c = X at h ⊢
  after_results_simp
  exact h

theorem W7_v28 : W7 m ρ c (Proc.devRef .tc main_v28) = val_main_v30 (F := Ideal) a1 a2 := by
  show StableHlo.after hostOps2 (W6 m ρ c) (Proc.devRef .tc main_v28) = _
  have h := W6_v28 m ρ c
  generalize W6 m ρ c = X at h ⊢
  after_results_simp
  exact h

theorem W7_v29 : W7 m ρ c (Proc.devRef .tc main_v29) = val_main_v44 (F := Ideal) a1 a2 := by
  show StableHlo.after hostOps2 (W6 m ρ c) (Proc.devRef .tc main_v29) = _
  have h := W6_v29 m ρ c
  generalize W6 m ρ c = X at h ⊢
  after_results_simp
  exact h

theorem W7_arg7 : W7 m ρ c (Proc.devRef .tc main_arg7) = a7 := by
  show StableHlo.after hostOps2 (W6 m ρ c) (Proc.devRef .tc main_arg7) = _
  have h := W6_arg7 m ρ c
  generalize W6 m ρ c = X at h ⊢
  after_results_simp
  exact h

theorem W7_arg8 : W7 m ρ c (Proc.devRef .tc main_arg8) = a8 := by
  show StableHlo.after hostOps2 (W6 m ρ c) (Proc.devRef .tc main_arg8) = _
  have h := W6_arg8 m ρ c
  generalize W6 m ρ c = X at h ⊢
  after_results_simp
  exact h

theorem W7_arg9 : W7 m ρ c (Proc.devRef .tc main_arg9) = a9 := by
  show StableHlo.after hostOps2 (W6 m ρ c) (Proc.devRef .tc main_arg9) = _
  have h := W6_arg9 m ρ c
  generalize W6 m ρ c = X at h ⊢
  after_results_simp
  exact h

theorem W7_v48 : W7 m ρ c (Proc.devRef .tc main_v48) = val_main_v53 (F := Ideal) a6 := by
  show StableHlo.after hostOps2 (W6 m ρ c) (Proc.devRef .tc main_v48) = _
  have h0 := W6_arg6 m ρ c
  generalize W6 m ρ c = X at h0 ⊢
  after_results_simp
  rw [h0]
  rfl

theorem W8_v1 : W8 m ρ c (Proc.devRef .tc main_v1) = val_main_v1 (F := Ideal) a1 :=
  (W8_of_ne m ρ c main_v1 (by decide)).trans (W7_v1 m ρ c)

theorem W8_v3 : W8 m ρ c (Proc.devRef .tc main_v3) = val_main_v3 (F := Ideal) a1 :=
  (W8_of_ne m ρ c main_v3 (by decide)).trans (W7_v3 m ρ c)

theorem W8_v28 : W8 m ρ c (Proc.devRef .tc main_v28) = val_main_v30 (F := Ideal) a1 a2 :=
  (W8_of_ne m ρ c main_v28 (by decide)).trans (W7_v28 m ρ c)

theorem W8_v29 : W8 m ρ c (Proc.devRef .tc main_v29) = val_main_v44 (F := Ideal) a1 a2 :=
  (W8_of_ne m ρ c main_v29 (by decide)).trans (W7_v29 m ρ c)

theorem W8_arg7 : W8 m ρ c (Proc.devRef .tc main_arg7) = a7 :=
  (W8_of_ne m ρ c main_arg7 (by decide)).trans (W7_arg7 m ρ c)

theorem W8_arg8 : W8 m ρ c (Proc.devRef .tc main_arg8) = a8 :=
  (W8_of_ne m ρ c main_arg8 (by decide)).trans (W7_arg8 m ρ c)

theorem W8_arg9 : W8 m ρ c (Proc.devRef .tc main_arg9) = a9 :=
  (W8_of_ne m ρ c main_arg9 (by decide)).trans (W7_arg9 m ρ c)

theorem W8_v49 : W8 m ρ c (Proc.devRef .tc main_v49) = val_main_v54 (F := Ideal) a0 a1 a2 a4 a5 a6 :=
  (W8_arr m ρ c 2).trans ((Cert.KernelIdeal.RegVal.region2 (V7 m ρ) c).trans (by
    show Cert.Spec.mm64 (W7 m ρ c (Proc.devRef .tc main_v47)) (W7 m ρ c (Proc.devRef .tc main_v48)) = _
    rw [W7_v47 m ρ c, W7_v48 m ρ c]
    exact (Cert.Spec.Host.dot64_eq _ _).symm))

theorem W9_v49 : W9 m ρ c (Proc.devRef .tc main_v49) = val_main_v54 (F := Ideal) a0 a1 a2 a4 a5 a6 := by
  show StableHlo.after hostOps3 (W8 m ρ c) (Proc.devRef .tc main_v49) = _
  have h := W8_v49 m ρ c
  generalize W8 m ρ c = X at h ⊢
  after_results_simp
  exact h

theorem W9_arg8 : W9 m ρ c (Proc.devRef .tc main_arg8) = a8 := by
  show StableHlo.after hostOps3 (W8 m ρ c) (Proc.devRef .tc main_arg8) = _
  have h := W8_arg8 m ρ c
  generalize W8 m ρ c = X at h ⊢
  after_results_simp
  exact h

theorem W9_arg9 : W9 m ρ c (Proc.devRef .tc main_arg9) = a9 := by
  show StableHlo.after hostOps3 (W8 m ρ c) (Proc.devRef .tc main_arg9) = _
  have h := W8_arg9 m ρ c
  generalize W8 m ρ c = X at h ⊢
  after_results_simp
  exact h

theorem W9_v62 : W9 m ρ c (Proc.devRef .tc main_v62) = val_main_v92 (F := Ideal) a0 a1 a2 a4 a5 a6 := by
  show StableHlo.after hostOps3 (W8 m ρ c) (Proc.devRef .tc main_v62) = _
  have h0 := W8_v28 m ρ c
  have h1 := W8_v1 m ρ c
  have h2 := W8_v3 m ρ c
  have h3 := W8_v49 m ρ c
  generalize W8 m ρ c = X at h0 h1 h2 h3 ⊢
  after_results_simp
  rw [h0, h1, h2, h3]
  rfl

theorem W9_v63 : W9 m ρ c (Proc.devRef .tc main_v63) = shapeCast S1x64 a7 shapeCasts_S64_S1x64 := by
  show StableHlo.after hostOps3 (W8 m ρ c) (Proc.devRef .tc main_v63) = _
  have h0 := W8_arg7 m ρ c
  generalize W8 m ρ c = X at h0 ⊢
  after_results_simp
  rw [h0]
  rfl

theorem W9_v64 : W9 m ρ c (Proc.devRef .tc main_v64) = shapeCast S100000x1 (val_main_v44 (F := Ideal) a1 a2) shapeCasts_S100000_S100000x1 := by
  show StableHlo.after hostOps3 (W8 m ρ c) (Proc.devRef .tc main_v64) = _
  have h0 := W8_v29 m ρ c
  generalize W8 m ρ c = X at h0 ⊢
  after_results_simp
  rw [h0]
  rfl

theorem W10_arg8 : W10 m ρ c (Proc.devRef .tc main_arg8) = a8 :=
  (W10_of_ne m ρ c main_arg8 (by decide)).trans (W9_arg8 m ρ c)

theorem W10_arg9 : W10 m ρ c (Proc.devRef .tc main_arg9) = a9 :=
  (W10_of_ne m ρ c main_arg9 (by decide)).trans (W9_arg9 m ρ c)

theorem W10_v65 : W10 m ρ c (Proc.devRef .tc main_v65) = val_main_v101 (F := Ideal) a0 a1 a2 a4 a5 a6 a7 :=
  (W10_arr m ρ c 4).trans ((Cert.KernelIdeal.RegVal.region3 (V9 m ρ) c).trans (by
    show Cert.Spec.comb (W9 m ρ c (Proc.devRef .tc main_v62)) (W9 m ρ c (Proc.devRef .tc main_v49)) (W9 m ρ c (Proc.devRef .tc main_v64)) (W9 m ρ c (Proc.devRef .tc main_v63)) = _
    rw [W9_v62 m ρ c, W9_v49 m ρ c, W9_v64 m ρ c, W9_v63 m ρ c]
    exact (Cert.Spec.Host.comb_eq _ _ _ _ _ _).symm))

theorem W11_v65 : W11 m ρ c (Proc.devRef .tc main_v65) = val_main_v101 (F := Ideal) a0 a1 a2 a4 a5 a6 a7 := by
  show StableHlo.after hostOps4 (W10 m ρ c) (Proc.devRef .tc main_v65) = _
  have h := W10_v65 m ρ c
  generalize W10 m ρ c = X at h ⊢
  after_results_simp
  exact h

theorem W11_v66 : W11 m ρ c (Proc.devRef .tc main_v66) = val_main_v102 (F := Ideal) a8 := by
  show StableHlo.after hostOps4 (W10 m ρ c) (Proc.devRef .tc main_v66) = _
  have h0 := W10_arg8 m ρ c
  generalize W10 m ρ c = X at h0 ⊢
  after_results_simp
  rw [h0]
  rfl

theorem W11_v67 : W11 m ρ c (Proc.devRef .tc main_v67) = shapeCast S1x1 a9 shapeCasts_S1_S1x1 := by
  show StableHlo.after hostOps4 (W10 m ρ c) (Proc.devRef .tc main_v67) = _
  have h0 := W10_arg9 m ρ c
  generalize W10 m ρ c = X at h0 ⊢
  after_results_simp
  rw [h0]
  rfl

theorem W12_v68 : W12 m ρ c (Proc.devRef .tc main_v68) = val_main_v106 (F := Ideal) a0 a1 a2 a4 a5 a6 a7 a8 a9 :=
  (W12_arr m ρ c 3).trans ((Cert.KernelIdeal.RegVal.region4 (V11 m ρ) c).trans (by
    show Cert.Spec.lin (W11 m ρ c (Proc.devRef .tc main_v65)) (W11 m ρ c (Proc.devRef .tc main_v66)) (W11 m ρ c (Proc.devRef .tc main_v67)) = _
    rw [W11_v65 m ρ c, W11_v66 m ρ c, W11_v67 m ρ c]
    exact (Cert.Spec.Host.lin_eq _ _ _ _).symm))

end Cert.KernelIdeal.Whole

end
-- ==== Proof.lean ====
/-
  The certificate of a two-layer graph convolution with a one-column linear head, over 100000 nodes and 1600000
  weighted edges. Both programs compute, over the extended reals,

    deg  = 1 + (sum of the incoming edge weights),      dis = deg^(-1/2) where deg > 0, else 0,
    norm(e) = dis(src e) · w(e) · dis(dst e),
    layer(h, W, b) = max( scatter-add over dst of norm(e) · (h Wᵀ)(src e)  +  dis² · (h Wᵀ)  +  b , 0 ),
    out  = layer(layer(x, W1, b1), W2, b2) · W3ᵀ + b3.

  The kernel computes the three matrix products and the two combinations max(agg + dis² · xw + b, 0) block by block,
  5000 rows at a time, and everything between them (the degree, the normalisation, the gather and the scatter-add over
  the edges) by the same host operations as the reference, the degree and the normalisation once where the reference
  computes them per layer. A block of rows of a matrix product is the product of the block of rows, and the
  combination is entrywise, so each launch leaves its output array at the reference's corresponding stage; no
  rearrangement of a sum is needed beyond that, and the precondition is never opened.
  Each launch's array after its run is proved in the modules RegMat (the products) and RegComb (the combinations)
  against the index-by-index functions of Spec; HostMat and HostComb show that the reference's host operations are
  the same functions; Chain carries every buffer's contents through the twelve segments of @main; KRun is the
  run itself with the result named.
-/
import proofs.«141275_j8727373545871_1_alg».proof.Defs
import proofs.«141275_j8727373545871_1_alg».proof.Proof.Gen.Kernel
import proofs.«141275_j8727373545871_1_alg».proof.Proof.Gen.Kernel.Frame
import proofs.«141275_j8727373545871_1_alg».proof.Proof.Gen.KernelIdeal
import proofs.«141275_j8727373545871_1_alg».proof.Proof.Gen.KernelIdeal.Frame
import proofs.«141275_j8727373545871_1_alg».proof.Proof.Gen.ReferenceIdeal
import proofs.«141275_j8727373545871_1_alg».proof.Proof.Gen.Pre_finite_inputs
import proofs.«141275_j8727373545871_1_alg».proof.Proof.Gen.ReferenceIdeal.Run
import proofs.«141275_j8727373545871_1_alg».proof.Proof.Gen.ReferenceIdeal.Read
import proofs.«141275_j8727373545871_1_alg».proof.Proof.KRun
import proofs.«141275_j8727373545871_1_alg».proof.Proof.Chain
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result: the kernel's result buffer
    holds the reference's last stage of the kernel's arguments, and the reference's holds it of its own. -/
theorem algebraic : Cert.algebraic_KernelIdeal_ReferenceIdeal := by
  intro m ρ m' ρ' _ hagree
  refine ⟨fun c => Cert.KernelIdeal.Gen.W12 m ρ c (Proc.devRef .tc Cert.KernelIdeal.main_v68),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, _, h4, h5, h6, h7, h8, h9⟩ := hagree c
  rw [Cert.ReferenceIdeal.Read.val_main_v106_eq, h0, h1, h2, h4, h5, h6, h7, h8, h9]
  exact (Cert.KernelIdeal.Whole.W12_v68 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
